-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x768 : Shape := ⟨3, ![2048, 2, 768]⟩
abbrev S2304x768 : Shape := ⟨2, ![2304, 768]⟩
abbrev S4096x32 : Shape := ⟨2, ![4096, 32]⟩
abbrev S_ : Shape := ⟨0, ![]⟩

class Facts : Prop where
  bcast_S_S2048x2x768 : S_.BroadcastsInDim S2048x2x768 (![] : Fin 0 → Fin S2048x2x768.rank)
  reducesTo_S2048x2x768_S_d0_1_2 : S2048x2x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S2048x2x768 .f32) (main_arg1 : FVec F S2304x768 .f32) (main_arg2 : FVec F S4096x32 .f32) (main_arg3 : FVec F S4096x32 .f32) : IVec S_ 1 :=
  let main_v0 : FVec F S2048x2x768 .f32 := Host.absf main_arg0
  let main_cst : FVec F S_ .f32 := constant S_ .f32 0x7F800000#32
  let main_v1 : FVec F S2048x2x768 .f32 := broadcastInDim S2048x2x768 ![] bcast_S_S2048x2x768 main_cst
  let main_v2 : IVec S2048x2x768 1 := cmpf .olt main_v0 main_v1
  let main_c : IVec S_ 1 := constantI S_ 1 1#1
  let main_v3 : IVec S_ 1 := (fun x v => Host.reduce IntOp.andi x v reducesTo_S2048x2x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Kernel.lean ====
abbrev S2048x2x768 : Shape := ⟨3, ![2048, 2, 768]⟩
abbrev S2304x768 : Shape := ⟨2, ![2304, 768]⟩
abbrev S4096x32 : Shape := ⟨2, ![4096, 32]⟩
abbrev S12x3x64x768 : Shape := ⟨4, ![12, 3, 64, 768]⟩
abbrev S12x2x64x768 : Shape := ⟨4, ![12, 2, 64, 768]⟩
abbrev S1536x768 : Shape := ⟨2, ![1536, 768]⟩
abbrev S768x1536 : Shape := ⟨2, ![768, 1536]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x24x64 : Shape := ⟨4, ![1, 2048, 24, 64]⟩
abbrev S2048x1536 : Shape := ⟨2, ![2048, 1536]⟩
abbrev S24x2048x64 : Shape := ⟨3, ![24, 2048, 64]⟩
abbrev S256x2x768 : Shape := ⟨3, ![256, 2, 768]⟩
abbrev S256x1536 : Shape := ⟨2, ![256, 1536]⟩
abbrev S24x256x64 : Shape := ⟨3, ![24, 256, 64]⟩
abbrev S256x1x768 : Shape := ⟨3, ![256, 1, 768]⟩
abbrev S256x768 : Shape := ⟨2, ![256, 768]⟩
abbrev S256x64 : Shape := ⟨2, ![256, 64]⟩
abbrev S1x256x64 : Shape := ⟨3, ![1, 256, 64]⟩
abbrev S24x2048x2048 : Shape := ⟨3, ![24, 2048, 2048]⟩
abbrev S1x1024x64 : Shape := ⟨3, ![1, 1024, 64]⟩
abbrev S1x1024x1024 : Shape := ⟨3, ![1, 1024, 1024]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 24
  | .vmem => 17
  | .smem => 0
  | _ => 0

abbrev bufTy : (tb : Table) → Fin (tcTables nBuf tb) → BufTy
  | .hbm, ⟨0, _⟩ => ⟨S2048x2x768, .f32⟩
  | .hbm, ⟨1, _⟩ => ⟨S2304x768, .f32⟩
  | .hbm, ⟨2, _⟩ => ⟨S4096x32, .f32⟩
  | .hbm, ⟨3, _⟩ => ⟨S4096x32, .f32⟩
  | .hbm, ⟨4, _⟩ => ⟨S12x3x64x768, .f32⟩
  | .hbm, ⟨5, _⟩ => ⟨S12x2x64x768, .f32⟩
  | .hbm, ⟨6, _⟩ => ⟨S1536x768, .f32⟩
  | .hbm, ⟨7, _⟩ => ⟨S768x1536, .f32⟩
  | .hbm, ⟨8, _⟩ => ⟨S768x1536, .bf16⟩
  | .hbm, ⟨9, _⟩ => ⟨S2048x32, .f32⟩
  | .hbm, ⟨10, _⟩ => ⟨S2048x32, .f32⟩
  | .hbm, ⟨11, _⟩ => ⟨S2048x32x2, .f32⟩
  | .hbm, ⟨12, _⟩ => ⟨S2048x64, .f32⟩
  | .hbm, ⟨13, _⟩ => ⟨S2048x32x2, .f32⟩
  | .hbm, ⟨14, _⟩ => ⟨S2048x64, .f32⟩
  | .hbm, ⟨15, _⟩ => ⟨S1x2048x1x64, .f32⟩
  | .hbm, ⟨16, _⟩ => ⟨S1x2048x24x64, .f32⟩
  | .hbm, ⟨17, _⟩ => ⟨S2048x1536, .f32⟩
  | .hbm, ⟨18, _⟩ => ⟨S1x2048x1x64, .f32⟩
  | .hbm, ⟨19, _⟩ => ⟨S1x2048x24x64, .f32⟩
  | .hbm, ⟨20, _⟩ => ⟨S2048x1536, .f32⟩
  | .hbm, ⟨21, _⟩ => ⟨S24x2048x64, .bf16⟩
  | .hbm, ⟨22, _⟩ => ⟨S24x2048x64, .bf16⟩
  | .hbm, ⟨23, _⟩ => ⟨S24x2048x2048, .f32⟩
  | .local _ .vmem, ⟨0, _⟩ => ⟨S256x2x768, .f32⟩
  | .local _ .vmem, ⟨1, _⟩ => ⟨S256x2x768, .f32⟩
  | .local _ .vmem, ⟨2, _⟩ => ⟨S768x1536, .bf16⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S24x256x64, .bf16⟩
  | .local _ .vmem, ⟨8, _⟩ => ⟨S24x256x64, .bf16⟩
  | .local _ .vmem, ⟨9, _⟩ => ⟨S24x256x64, .bf16⟩
  | .local _ .vmem, ⟨10, _⟩ => ⟨S24x256x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x1024, .f32⟩
  | .local _ .vmem, ⟨16, _⟩ => ⟨S1x1024x1024, .f32⟩
  | _, _ => ⟨S2048x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![24, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S2304x768_S12x3x64x768 : S2304x768.ShapeCasts S12x3x64x768
  slices_S12x3x64x768_S12x2x64x768_0_0_0_0 : S12x3x64x768.Slices ![0, 0, 0, 0] S12x2x64x768
  shapeCasts_S12x2x64x768_S1536x768 : S12x2x64x768.ShapeCasts S1536x768
  transposes_S1536x768_S768x1536_1_0 : S1536x768.Transposes [1, 0] S768x1536
  bitsLt_bf16_f32 : FTy.bits .bf16 < FTy.bits .f32
  slices_S4096x32_S2048x32_0_0 : S4096x32.Slices ![0, 0] S2048x32
  bcast_S2048x32_S2048x32x2_0_1 : S2048x32.BroadcastsInDim S2048x32x2 (![0, 1] : Fin 2 → Fin S2048x32x2.rank)
  shapeCasts_S2048x32x2_S2048x64 : S2048x32x2.ShapeCasts S2048x64
  shapeCasts_S2048x64_S1x2048x1x64 : S2048x64.ShapeCasts S1x2048x1x64
  bcast_S1x2048x1x64_S1x2048x24x64_0_1_2_3 : S1x2048x1x64.BroadcastsInDim S1x2048x24x64 (![0, 1, 2, 3] : Fin 4 → Fin S1x2048x24x64.rank)
  shapeCasts_S1x2048x24x64_S2048x1536 : S1x2048x24x64.ShapeCasts S2048x1536
  iota_S256x1536_d1_w32 : S256x1536.Iotas .tc 32 [1]
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S256x2x768_S256x1x768_0_0_0 : ∀ a, (![0, 0, 0] : Fin 3 → Nat) a + S256x1x768.size a ≤ S256x2x768.size a
  h_S256x1x768 : 0 < S256x1x768.numel
  shapeCasts_S256x1x768_S256x768 : S256x1x768.ShapeCasts S256x768
  rotates_S256x1536_d1 : S256x1536.Rotates 1 none
  slices_S256x1536_o0_0_S256x64 : S256x1536.Slices ![0, 0] S256x64
  slices_S256x1536_o0_64_S256x64 : S256x1536.Slices ![0, 64] S256x64
  inb_S24x256x64_S1x256x64_0_0_0 : ∀ a, (![0, 0, 0] : Fin 3 → Nat) a + S1x256x64.size a ≤ S24x256x64.size a
  h_S1x256x64 : 0 < S1x256x64.numel
  shapeCasts_S1x256x64_S256x64 : S1x256x64.ShapeCasts S256x64
  shapeCasts_S256x64_S1x256x64 : S256x64.ShapeCasts S1x256x64
  packedbf16_S24x256x64_S1x256x64_0_0_0 : (Rect.unit (s := S24x256x64) ![0, 0, 0] S1x256x64.size inb_S24x256x64_S1x256x64_0_0_0).PackedRows (EltTy.packing .bf16)
  slices_S256x1536_o0_128_S256x64 : S256x1536.Slices ![0, 128] S256x64
  slices_S256x1536_o0_192_S256x64 : S256x1536.Slices ![0, 192] S256x64
  inb_S24x256x64_S1x256x64_1_0_0 : ∀ a, (![1, 0, 0] : Fin 3 → Nat) a + S1x256x64.size a ≤ S24x256x64.size a
  packedbf16_S24x256x64_S1x256x64_1_0_0 : (Rect.unit (s := S24x256x64) ![1, 0, 0] S1x256x64.size inb_S24x256x64_S1x256x64_1_0_0).PackedRows (EltTy.packing .bf16)
  slices_S256x1536_o0_256_S256x64 : S256x1536.Slices ![0, 256] S256x64
  slices_S256x1536_o0_320_S256x64 : S256x1536.Slices ![0, 320] S256x64
  inb_S24x256x64_S1x256x64_2_0_0 : ∀ a, (![2, 0, 0] : Fin 3 → Nat) a + S1x256x64.size a ≤ S24x256x64.size a
  packedbf16_S24x256x64_S1x256x64_2_0_0 : (Rect.unit (s := S24x256x64) ![2, 0, 0] S1x256x64.size inb_S24x256x64_S1x256x64_2_0_0).PackedRows (EltTy.packing .bf16)
  slices_S256x1536_o0_384_S256x64 : S256x1536.Slices ![0, 384] S256x64
  slices_S256x1536_o0_448_S256x64 : S256x1536.Slices ![0, 448] S256x64
  inb_S24x256x64_S1x256x64_3_0_0 : ∀ a, (![3, 0, 0] : Fin 3 → Nat) a + S1x256x64.size a ≤ S24x256x64.size a
  packedbf16_S24x256x64_S1x256x64_3_0_0 : (Rect.unit (s := S24x256x64) ![3, 0, 0] S1x256x64.size inb_S24x256x64_S1x256x64_3_0_0).PackedRows (EltTy.packing .bf16)
  slices_S256x1536_o0_512_S256x64 : S256x1536.Slices ![0, 512] S256x64
  slices_S256x1536_o0_576_S256x64 : S256x1536.Slices ![0, 576] S256x64
  inb_S24x256x64_S1x256x64_4_0_0 : ∀ a, (![4, 0, 0] : Fin 3 → Nat) a + S1x256x64.size a ≤ S24x256x64.size a
  packedbf16_S24x256x64_S1x256x64_4_0_0 : (Rect.unit (s := S24x256x64) ![4, 0, 0] S1x256x64.size inb_S24x256x64_S1x256x64_4_0_0).PackedRows (EltTy.packing .bf16)
  slices_S256x1536_o0_640_S256x64 : S256x1536.Slices ![0, 640] S256x64
  slices_S256x1536_o0_704_S256x64 : S256x1536.Slices ![0, 704] S256x64
  inb_S24x256x64_S1x256x64_5_0_0 : ∀ a, (![5, 0, 0] : Fin 3 → Nat) a + S1x256x64.size a ≤ S24x256x64.size a
  packedbf16_S24x256x64_S1x256x64_5_0_0 : (Rect.unit (s := S24x256x64) ![5, 0, 0] S1x256x64.size inb_S24x256x64_S1x256x64_5_0_0).PackedRows (EltTy.packing .bf16)
  slices_S256x1536_o0_768_S256x64 : S256x1536.Slices ![0, 768] S256x64
  slices_S256x1536_o0_832_S256x64 : S256x1536.Slices ![0, 832] S256x64
  inb_S24x256x64_S1x256x64_6_0_0 : ∀ a, (![6, 0, 0] : Fin 3 → Nat) a + S1x256x64.size a ≤ S24x256x64.size a
  packedbf16_S24x256x64_S1x256x64_6_0_0 : (Rect.unit (s := S24x256x64) ![6, 0, 0] S1x256x64.size inb_S24x256x64_S1x256x64_6_0_0).PackedRows (EltTy.packing .bf16)
  slices_S256x1536_o0_896_S256x64 : S256x1536.Slices ![0, 896] S256x64
  slices_S256x1536_o0_960_S256x64 : S256x1536.Slices ![0, 960] S256x64
  inb_S24x256x64_S1x256x64_7_0_0 : ∀ a, (![7, 0, 0] : Fin 3 → Nat) a + S1x256x64.size a ≤ S24x256x64.size a
  packedbf16_S24x256x64_S1x256x64_7_0_0 : (Rect.unit (s := S24x256x64) ![7, 0, 0] S1x256x64.size inb_S24x256x64_S1x256x64_7_0_0).PackedRows (EltTy.packing .bf16)
  slices_S256x1536_o0_1024_S256x64 : S256x1536.Slices ![0, 1024] S256x64
  slices_S256x1536_o0_1088_S256x64 : S256x1536.Slices ![0, 1088] S256x64
  inb_S24x256x64_S1x256x64_8_0_0 : ∀ a, (![8, 0, 0] : Fin 3 → Nat) a + S1x256x64.size a ≤ S24x256x64.size a
  packedbf16_S24x256x64_S1x256x64_8_0_0 : (Rect.unit (s := S24x256x64) ![8, 0, 0] S1x256x64.size inb_S24x256x64_S1x256x64_8_0_0).PackedRows (EltTy.packing .bf16)
  slices_S256x1536_o0_1152_S256x64 : S256x1536.Slices ![0, 1152] S256x64
  slices_S256x1536_o0_1216_S256x64 : S256x1536.Slices ![0, 1216] S256x64
  inb_S24x256x64_S1x256x64_9_0_0 : ∀ a, (![9, 0, 0] : Fin 3 → Nat) a + S1x256x64.size a ≤ S24x256x64.size a
  packedbf16_S24x256x64_S1x256x64_9_0_0 : (Rect.unit (s := S24x256x64) ![9, 0, 0] S1x256x64.size inb_S24x256x64_S1x256x64_9_0_0).PackedRows (EltTy.packing .bf16)
  slices_S256x1536_o0_1280_S256x64 : S256x1536.Slices ![0, 1280] S256x64
  slices_S256x1536_o0_1344_S256x64 : S256x1536.Slices ![0, 1344] S256x64
  inb_S24x256x64_S1x256x64_10_0_0 : ∀ a, (![10, 0, 0] : Fin 3 → Nat) a + S1x256x64.size a ≤ S24x256x64.size a
  packedbf16_S24x256x64_S1x256x64_10_0_0 : (Rect.unit (s := S24x256x64) ![10, 0, 0] S1x256x64.size inb_S24x256x64_S1x256x64_10_0_0).PackedRows (EltTy.packing .bf16)
  slices_S256x1536_o0_1408_S256x64 : S256x1536.Slices ![0, 1408] S256x64
  slices_S256x1536_o0_1472_S256x64 : S256x1536.Slices ![0, 1472] S256x64
  inb_S24x256x64_S1x256x64_11_0_0 : ∀ a, (![11, 0, 0] : Fin 3 → Nat) a + S1x256x64.size a ≤ S24x256x64.size a
  packedbf16_S24x256x64_S1x256x64_11_0_0 : (Rect.unit (s := S24x256x64) ![11, 0, 0] S1x256x64.size inb_S24x256x64_S1x256x64_11_0_0).PackedRows (EltTy.packing .bf16)
  inb_S256x2x768_S256x1x768_0_1_0 : ∀ a, (![0, 1, 0] : Fin 3 → Nat) a + S256x1x768.size a ≤ S256x2x768.size a
  inb_S24x256x64_S1x256x64_12_0_0 : ∀ a, (![12, 0, 0] : Fin 3 → Nat) a + S1x256x64.size a ≤ S24x256x64.size a
  packedbf16_S24x256x64_S1x256x64_12_0_0 : (Rect.unit (s := S24x256x64) ![12, 0, 0] S1x256x64.size inb_S24x256x64_S1x256x64_12_0_0).PackedRows (EltTy.packing .bf16)
  inb_S24x256x64_S1x256x64_13_0_0 : ∀ a, (![13, 0, 0] : Fin 3 → Nat) a + S1x256x64.size a ≤ S24x256x64.size a
  packedbf16_S24x256x64_S1x256x64_13_0_0 : (Rect.unit (s := S24x256x64) ![13, 0, 0] S1x256x64.size inb_S24x256x64_S1x256x64_13_0_0).PackedRows (EltTy.packing .bf16)
  inb_S24x256x64_S1x256x64_14_0_0 : ∀ a, (![14, 0, 0] : Fin 3 → Nat) a + S1x256x64.size a ≤ S24x256x64.size a
  packedbf16_S24x256x64_S1x256x64_14_0_0 : (Rect.unit (s := S24x256x64) ![14, 0, 0] S1x256x64.size inb_S24x256x64_S1x256x64_14_0_0).PackedRows (EltTy.packing .bf16)
  inb_S24x256x64_S1x256x64_15_0_0 : ∀ a, (![15, 0, 0] : Fin 3 → Nat) a + S1x256x64.size a ≤ S24x256x64.size a
  packedbf16_S24x256x64_S1x256x64_15_0_0 : (Rect.unit (s := S24x256x64) ![15, 0, 0] S1x256x64.size inb_S24x256x64_S1x256x64_15_0_0).PackedRows (EltTy.packing .bf16)
  inb_S24x256x64_S1x256x64_16_0_0 : ∀ a, (![16, 0, 0] : Fin 3 → Nat) a + S1x256x64.size a ≤ S24x256x64.size a
  packedbf16_S24x256x64_S1x256x64_16_0_0 : (Rect.unit (s := S24x256x64) ![16, 0, 0] S1x256x64.size inb_S24x256x64_S1x256x64_16_0_0).PackedRows (EltTy.packing .bf16)
  inb_S24x256x64_S1x256x64_17_0_0 : ∀ a, (![17, 0, 0] : Fin 3 → Nat) a + S1x256x64.size a ≤ S24x256x64.size a
  packedbf16_S24x256x64_S1x256x64_17_0_0 : (Rect.unit (s := S24x256x64) ![17, 0, 0] S1x256x64.size inb_S24x256x64_S1x256x64_17_0_0).PackedRows (EltTy.packing .bf16)
  inb_S24x256x64_S1x256x64_18_0_0 : ∀ a, (![18, 0, 0] : Fin 3 → Nat) a + S1x256x64.size a ≤ S24x256x64.size a
  packedbf16_S24x256x64_S1x256x64_18_0_0 : (Rect.unit (s := S24x256x64) ![18, 0, 0] S1x256x64.size inb_S24x256x64_S1x256x64_18_0_0).PackedRows (EltTy.packing .bf16)
  inb_S24x256x64_S1x256x64_19_0_0 : ∀ a, (![19, 0, 0] : Fin 3 → Nat) a + S1x256x64.size a ≤ S24x256x64.size a
  packedbf16_S24x256x64_S1x256x64_19_0_0 : (Rect.unit (s := S24x256x64) ![19, 0, 0] S1x256x64.size inb_S24x256x64_S1x256x64_19_0_0).PackedRows (EltTy.packing .bf16)
  inb_S24x256x64_S1x256x64_20_0_0 : ∀ a, (![20, 0, 0] : Fin 3 → Nat) a + S1x256x64.size a ≤ S24x256x64.size a
  packedbf16_S24x256x64_S1x256x64_20_0_0 : (Rect.unit (s := S24x256x64) ![20, 0, 0] S1x256x64.size inb_S24x256x64_S1x256x64_20_0_0).PackedRows (EltTy.packing .bf16)
  inb_S24x256x64_S1x256x64_21_0_0 : ∀ a, (![21, 0, 0] : Fin 3 → Nat) a + S1x256x64.size a ≤ S24x256x64.size a
  packedbf16_S24x256x64_S1x256x64_21_0_0 : (Rect.unit (s := S24x256x64) ![21, 0, 0] S1x256x64.size inb_S24x256x64_S1x256x64_21_0_0).PackedRows (EltTy.packing .bf16)
  inb_S24x256x64_S1x256x64_22_0_0 : ∀ a, (![22, 0, 0] : Fin 3 → Nat) a + S1x256x64.size a ≤ S24x256x64.size a
  packedbf16_S24x256x64_S1x256x64_22_0_0 : (Rect.unit (s := S24x256x64) ![22, 0, 0] S1x256x64.size inb_S24x256x64_S1x256x64_22_0_0).PackedRows (EltTy.packing .bf16)
  inb_S24x256x64_S1x256x64_23_0_0 : ∀ a, (![23, 0, 0] : Fin 3 → Nat) a + S1x256x64.size a ≤ S24x256x64.size a
  packedbf16_S24x256x64_S1x256x64_23_0_0 : (Rect.unit (s := S24x256x64) ![23, 0, 0] S1x256x64.size inb_S24x256x64_S1x256x64_23_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S256x768_S768x1536_S256x1536_1_0_0_1_n_n_wf : DotDims.WF S256x768 S768x1536 S256x1536 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2x768.size a ≤ S2048x2x768.size a
  hwx0_0 : ∀ i : grid0.Coords, EltTy.bits .f32 = 32 ∨ (Rect.block (s := S2048x2x768) S256x2x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x1536.size a
  hwx0_1 : ∀ i : grid0.Coords, EltTy.bits .bf16 = 32 ∨ (Rect.block (s := S768x1536) S768x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1536.size a ≤ S2048x1536.size a
  hwx0_2 : ∀ i : grid0.Coords, EltTy.bits .f32 = 32 ∨ (Rect.block (s := S2048x1536) S256x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1536.size a ≤ S2048x1536.size a
  hwx0_3 : ∀ i : grid0.Coords, EltTy.bits .f32 = 32 ∨ (Rect.block (s := S2048x1536) S256x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S24x256x64.size a ≤ S24x2048x64.size a
  hwx0_4 : ∀ i : grid0.Coords, EltTy.bits .bf16 = 32 ∨ (Rect.block (s := S24x2048x64) S24x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S24x256x64.size a ≤ S24x2048x64.size a
  hwx0_5 : ∀ i : grid0.Coords, EltTy.bits .bf16 = 32 ∨ (Rect.block (s := S24x2048x64) S24x256x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S24x2048x64.size a
  hwx1_0 : ∀ i : grid1.Coords, EltTy.bits .bf16 = 32 ∨ (Rect.block (s := S24x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S24x2048x64.size a
  hwx1_1 : ∀ i : grid1.Coords, EltTy.bits .bf16 = 32 ∨ (Rect.block (s := S24x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S24x2048x2048.size a
  hwx1_2 : ∀ i : grid1.Coords, EltTy.bits .f32 = 32 ∨ (Rect.block (s := S24x2048x2048) S1x1024x1024.size (cc1_transform_2 i) (hinb1_2 i)).WholeWords (EltTy.packing .f32)

variable [Facts₀]

def dot_S256x768_S768x1536_S256x1536_1_0_0_1_n_n : DotDims S256x768 S768x1536 S256x1536 where
  lhsContracting := [1]
  rhsContracting := [0]
  lhsNonContracting := [0]
  rhsNonContracting := [1]
  lhsBatch := []
  rhsBatch := []
  wf := dot_S256x768_S768x1536_S256x1536_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S256x2x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S24x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S24x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x2x768 : Shape := ⟨3, ![2048, 2, 768]⟩
abbrev S2304x768 : Shape := ⟨2, ![2304, 768]⟩
abbrev S4096x32 : Shape := ⟨2, ![4096, 32]⟩
abbrev S2048x2x2304 : Shape := ⟨3, ![2048, 2, 2304]⟩
abbrev S2048x2x12x192 : Shape := ⟨4, ![2048, 2, 12, 192]⟩
abbrev S2048x2x12x64 : Shape := ⟨4, ![2048, 2, 12, 64]⟩
abbrev S2048x2x12x32x2 : Shape := ⟨5, ![2048, 2, 12, 32, 2]⟩
abbrev S2048x2x12x32x1 : Shape := ⟨5, ![2048, 2, 12, 32, 1]⟩
abbrev S2048x2x12x32 : Shape := ⟨4, ![2048, 2, 12, 32]⟩
abbrev S2048x32 : Shape := ⟨2, ![2048, 32]⟩
abbrev S2048x1x1x32 : Shape := ⟨4, ![2048, 1, 1, 32]⟩
abbrev S2x12x2048x64 : Shape := ⟨4, ![2, 12, 2048, 64]⟩
abbrev S24x2048x64 : Shape := ⟨3, ![24, 2048, 64]⟩
abbrev S24x2048x2048 : Shape := ⟨3, ![24, 2048, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2048x2x768, .f32⟩
  | .hbm, ⟨1, _⟩ => ⟨S2304x768, .f32⟩
  | .hbm, ⟨2, _⟩ => ⟨S4096x32, .f32⟩
  | .hbm, ⟨3, _⟩ => ⟨S4096x32, .f32⟩
  | .hbm, ⟨4, _⟩ => ⟨S2048x2x2304, .f32⟩
  | .hbm, ⟨5, _⟩ => ⟨S2048x2x12x192, .f32⟩
  | .hbm, ⟨6, _⟩ => ⟨S2048x2x12x64, .f32⟩
  | .hbm, ⟨7, _⟩ => ⟨S2048x2x12x64, .f32⟩
  | .hbm, ⟨8, _⟩ => ⟨S2048x2x12x64, .f32⟩
  | .hbm, ⟨9, _⟩ => ⟨S2048x2x12x32x2, .f32⟩
  | .hbm, ⟨10, _⟩ => ⟨S2048x2x12x32x1, .f32⟩
  | .hbm, ⟨11, _⟩ => ⟨S2048x2x12x32, .f32⟩
  | .hbm, ⟨12, _⟩ => ⟨S2048x2x12x32x1, .f32⟩
  | .hbm, ⟨13, _⟩ => ⟨S2048x2x12x32, .f32⟩
  | .hbm, ⟨14, _⟩ => ⟨S2048x32, .f32⟩
  | .hbm, ⟨15, _⟩ => ⟨S2048x1x1x32, .f32⟩
  | .hbm, ⟨16, _⟩ => ⟨S2048x32, .f32⟩
  | .hbm, ⟨17, _⟩ => ⟨S2048x1x1x32, .f32⟩
  | .hbm, ⟨18, _⟩ => ⟨S2048x2x12x32, .f32⟩
  | .hbm, ⟨19, _⟩ => ⟨S2048x2x12x32, .f32⟩
  | .hbm, ⟨20, _⟩ => ⟨S2048x2x12x32, .f32⟩
  | .hbm, ⟨21, _⟩ => ⟨S2048x2x12x32, .f32⟩
  | .hbm, ⟨22, _⟩ => ⟨S2048x2x12x32, .f32⟩
  | .hbm, ⟨23, _⟩ => ⟨S2048x2x12x32, .f32⟩
  | .hbm, ⟨24, _⟩ => ⟨S2048x2x12x32, .f32⟩
  | .hbm, ⟨25, _⟩ => ⟨S2048x2x12x32, .f32⟩
  | .hbm, ⟨26, _⟩ => ⟨S2048x2x12x32, .f32⟩
  | .hbm, ⟨27, _⟩ => ⟨S2048x2x12x32, .f32⟩
  | .hbm, ⟨28, _⟩ => ⟨S2048x2x12x32x1, .f32⟩
  | .hbm, ⟨29, _⟩ => ⟨S2048x2x12x32x1, .f32⟩
  | .hbm, ⟨30, _⟩ => ⟨S2048x2x12x32x2, .f32⟩
  | .hbm, ⟨31, _⟩ => ⟨S2048x2x12x64, .f32⟩
  | .hbm, ⟨32, _⟩ => ⟨S2048x2x12x32x2, .f32⟩
  | .hbm, ⟨33, _⟩ => ⟨S2048x2x12x32x1, .f32⟩
  | .hbm, ⟨34, _⟩ => ⟨S2048x2x12x32, .f32⟩
  | .hbm, ⟨35, _⟩ => ⟨S2048x2x12x32x1, .f32⟩
  | .hbm, ⟨36, _⟩ => ⟨S2048x2x12x32, .f32⟩
  | .hbm, ⟨37, _⟩ => ⟨S2048x32, .f32⟩
  | .hbm, ⟨38, _⟩ => ⟨S2048x1x1x32, .f32⟩
  | .hbm, ⟨39, _⟩ => ⟨S2048x32, .f32⟩
  | .hbm, ⟨40, _⟩ => ⟨S2048x1x1x32, .f32⟩
  | .hbm, ⟨41, _⟩ => ⟨S2048x2x12x32, .f32⟩
  | .hbm, ⟨42, _⟩ => ⟨S2048x2x12x32, .f32⟩
  | .hbm, ⟨43, _⟩ => ⟨S2048x2x12x32, .f32⟩
  | .hbm, ⟨44, _⟩ => ⟨S2048x2x12x32, .f32⟩
  | .hbm, ⟨45, _⟩ => ⟨S2048x2x12x32, .f32⟩
  | .hbm, ⟨46, _⟩ => ⟨S2048x2x12x32, .f32⟩
  | .hbm, ⟨47, _⟩ => ⟨S2048x2x12x32, .f32⟩
  | .hbm, ⟨48, _⟩ => ⟨S2048x2x12x32, .f32⟩
  | .hbm, ⟨49, _⟩ => ⟨S2048x2x12x32, .f32⟩
  | .hbm, ⟨50, _⟩ => ⟨S2048x2x12x32, .f32⟩
  | .hbm, ⟨51, _⟩ => ⟨S2048x2x12x32x1, .f32⟩
  | .hbm, ⟨52, _⟩ => ⟨S2048x2x12x32x1, .f32⟩
  | .hbm, ⟨53, _⟩ => ⟨S2048x2x12x32x2, .f32⟩
  | .hbm, ⟨54, _⟩ => ⟨S2048x2x12x64, .f32⟩
  | .hbm, ⟨55, _⟩ => ⟨S2x12x2048x64, .f32⟩
  | .hbm, ⟨56, _⟩ => ⟨S24x2048x64, .f32⟩
  | .hbm, ⟨57, _⟩ => ⟨S2x12x2048x64, .f32⟩
  | .hbm, ⟨58, _⟩ => ⟨S24x2048x64, .f32⟩
  | .hbm, ⟨59, _⟩ => ⟨S24x2048x2048, .f32⟩
  | _, _ => ⟨S2048x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩

abbrev nD : Nat := 1
abbrev τ : Topo := Topo.v7x

variable {F : FTy → Type} [FloatOps F]

class Facts₀ : Prop where
  shapeCasts_S2048x2x2304_S2048x2x12x192 : S2048x2x2304.ShapeCasts S2048x2x12x192
  slices_S2048x2x12x192_S2048x2x12x64_0_0_0_0 : S2048x2x12x192.Slices ![0, 0, 0, 0] S2048x2x12x64
  slices_S2048x2x12x192_S2048x2x12x64_0_0_0_64 : S2048x2x12x192.Slices ![0, 0, 0, 64] S2048x2x12x64
  slices_S2048x2x12x192_S2048x2x12x64_0_0_0_128 : S2048x2x12x192.Slices ![0, 0, 0, 128] S2048x2x12x64
  shapeCasts_S2048x2x12x64_S2048x2x12x32x2 : S2048x2x12x64.ShapeCasts S2048x2x12x32x2
  slices_S2048x2x12x32x2_S2048x2x12x32x1_0_0_0_0_0 : S2048x2x12x32x2.Slices ![0, 0, 0, 0, 0] S2048x2x12x32x1
  shapeCasts_S2048x2x12x32x1_S2048x2x12x32 : S2048x2x12x32x1.ShapeCasts S2048x2x12x32
  slices_S2048x2x12x32x2_S2048x2x12x32x1_0_0_0_0_1 : S2048x2x12x32x2.Slices ![0, 0, 0, 0, 1] S2048x2x12x32x1
  slices_S4096x32_S2048x32_0_0 : S4096x32.Slices ![0, 0] S2048x32
  bcast_S2048x32_S2048x1x1x32_0_3 : S2048x32.BroadcastsInDim S2048x1x1x32 (![0, 3] : Fin 2 → Fin S2048x1x1x32.rank)
  bcast_S2048x1x1x32_S2048x2x12x32_0_1_2_3 : S2048x1x1x32.BroadcastsInDim S2048x2x12x32 (![0, 1, 2, 3] : Fin 4 → Fin S2048x2x12x32.rank)
  bcast_S2048x2x12x32_S2048x2x12x32x1_0_1_2_3 : S2048x2x12x32.BroadcastsInDim S2048x2x12x32x1 (![0, 1, 2, 3] : Fin 4 → Fin S2048x2x12x32x1.rank)
  concatenates_S2048x2x12x32x1_S2048x2x12x32x1_S2048x2x12x32x2_d4 : Shape.Concatenates [S2048x2x12x32x1, S2048x2x12x32x1] S2048x2x12x32x2 4
  shapeCasts_S2048x2x12x32x2_S2048x2x12x64 : S2048x2x12x32x2.ShapeCasts S2048x2x12x64
  transposes_S2048x2x12x64_S2x12x2048x64_1_2_0_3 : S2048x2x12x64.Transposes [1, 2, 0, 3] S2x12x2048x64
  shapeCasts_S2x12x2048x64_S24x2048x64 : S2x12x2048x64.ShapeCasts S24x2048x64
  dot_S2048x2x768_S2304x768_S2048x2x2304_2_1_01_0_n_n_wf : DotDims.WF S2048x2x768 S2304x768 S2048x2x2304 [2] [1] [0, 1] [0] [] []
  dot_S24x2048x64_S24x2048x64_S24x2048x2048_2_2_1_1_0_0_wf : DotDims.WF S24x2048x64 S24x2048x64 S24x2048x2048 [2] [2] [1] [1] [0] [0]

variable [Facts₀]

def dot_S2048x2x768_S2304x768_S2048x2x2304_2_1_01_0_n_n : DotDims S2048x2x768 S2304x768 S2048x2x2304 where
  lhsContracting := [2]
  rhsContracting := [1]
  lhsNonContracting := [0, 1]
  rhsNonContracting := [0]
  lhsBatch := []
  rhsBatch := []
  wf := dot_S2048x2x768_S2304x768_S2048x2x2304_2_1_01_0_n_n_wf
def dot_S24x2048x64_S24x2048x64_S24x2048x2048_2_2_1_1_0_0 : DotDims S24x2048x64 S24x2048x64 S24x2048x2048 where
  lhsContracting := [2]
  rhsContracting := [2]
  lhsNonContracting := [1]
  rhsNonContracting := [1]
  lhsBatch := [0]
  rhsBatch := [0]
  wf := dot_S24x2048x64_S24x2048x64_S24x2048x2048_2_2_1_1_0_0_wf

class Facts : Prop extends Facts₀ where

variable [Facts]
-- ==== Proof.KRun.lean ====
/-
  The idealized kernel's run with its result NAMED. The program is a stretch of host operations and two pipelined regions;
  its run is the launch over those three segments, and at the return every unscoped buffer holds the contents of the last
  segment boundary. Read at the arguments those contents are the launch memory (the frame); read at the result array they are
  what the second region's write-backs leave: the fold of that region's flushed blocks over the array as the region found it.
-/
import proofs.«120772_j11879879542592_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at what the second region's
    write-backs leave of the array as that region found it, and the four argument arrays as launched. -/
theorem run : θ_run defs (onTc (τ := τ) (main (F := F))) ⟨m, fun _ => 0, ρ⟩ (fun r => ∀ c : Dev nD,
      r.2.mem ((c.tc : Thread nD τ).loc main_v18) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v18 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.NamedRun

end
-- ==== Proof.Spec.lean ====
/-
  The common value of the two programs, stated once over the four argument arrays and no program text.

  Write X for the activations [2048, 2, 768], W for the fused projection weight [2304, 768] (row h·192 + p·64 + d is head h,
  part p (0 the queries, 1 the keys, 2 the values, unused), feature d), C and Sn for the cosine and sine tables [4096, 32].
  * `mix`   — the projection: mix(s, b, o) = Σ_k X(s, b, k) · W(o, k).
  * `rot`   — the rotation of feature pairs (2j, 2j+1) by the angle of position s: with m0, m1 the projection at the even and the
               odd feature of pair j = d / 2, the even feature becomes m0·cos − m1·sin and the odd one m0·sin + m1·cos.
  * `out`   — the scores: out(b·12 + h, s, t) = Σ_d rot_q(s, b, h, d) · rot_k(t, b, h, d).
  Everything is over the extended reals; no law used here needs finiteness.
-/
import Idealize.ShloMosaic.PureOps.Ideal
import Idealize.ShloMosaic.Lib.ValueIdx

noncomputable section

namespace Cert.RopeSpec

open Idealize.ShloMosaic Idealize.ShloMosaic.ValueIdx

abbrev SX : Shape := ⟨3, ![2048, 2, 768]⟩
abbrev SW : Shape := ⟨2, ![2304, 768]⟩
abbrev ST : Shape := ⟨2, ![4096, 32]⟩
abbrev SO : Shape := ⟨3, ![24, 2048, 2048]⟩
abbrev SQ : Shape := ⟨3, ![24, 2048, 64]⟩

/-- The projection of position `s`, batch `b` onto weight row `o`. -/
def mix (X : SX.Idx → EReal) (W : SW.Idx → EReal) (s : Fin 2048) (b : Fin 2) (o : Fin 2304) : EReal :=
  ∑ k : Fin 768, X (ix3 s b k) * W (ix2 o k)

/-- Weight row of head `h`, part `p`, the EVEN feature of the pair that holds feature `d`. -/
abbrev row0 (p : Fin 2) (h : Fin 12) (d : Fin 64) : Fin 2304 := ⟨h.val * 192 + p.val * 64 + 2 * (d.val / 2), by omega⟩
/-- The ODD feature of that pair. -/
abbrev row1 (p : Fin 2) (h : Fin 12) (d : Fin 64) : Fin 2304 := ⟨h.val * 192 + p.val * 64 + 2 * (d.val / 2) + 1, by omega⟩
/-- The table entry of position `s` and the pair that holds feature `d`. -/
abbrev tix (s : Fin 2048) (d : Fin 64) : ST.Idx := ix2 (⟨s.val, by omega⟩ : Fin 4096) (⟨d.val / 2, by omega⟩ : Fin 32)

/-- The rotated projection: part `p` of head `h`, batch `b`, position `s`, feature `d`. -/
def rot (X : SX.Idx → EReal) (W : SW.Idx → EReal) (C Sn : ST.Idx → EReal) (p : Fin 2) (s : Fin 2048) (b : Fin 2) (h : Fin 12)
    (d : Fin 64) : EReal :=
  if d.val % 2 = 0 then mix X W s b (row0 p h d) * C (tix s d) - mix X W s b (row1 p h d) * Sn (tix s d)
  else mix X W s b (row0 p h d) * Sn (tix s d) + mix X W s b (row1 p h d) * C (tix s d)

/-- The score of query position `s` against key position `t` in head slot `bh = b·12 + h`. -/
def outAt (X : SX.Idx → EReal) (W : SW.Idx → EReal) (C Sn : ST.Idx → EReal) (bh : Fin 24) (s t : Fin 2048) : EReal :=
  ∑ d : Fin 64, rot X W C Sn 0 s ⟨bh.val / 12, by omega⟩ ⟨bh.val % 12, by omega⟩ d
    * rot X W C Sn 1 t ⟨bh.val / 12, by omega⟩ ⟨bh.val % 12, by omega⟩ d

/-- The whole score array. -/
def out (X : SX.Idx → EReal) (W : SW.Idx → EReal) (C Sn : ST.Idx → EReal) : SO.Idx → EReal := fun i =>
  outAt X W C Sn ⟨(i 0).val, (i 0).isLt⟩ ⟨(i 1).val, (i 1).isLt⟩ ⟨(i 2).val, (i 2).isLt⟩

/-- The batched product of two [24, 2048, 64] arrays along their last axis: entry (bh, s, t) is Σ_d A(bh, s, d) · B(bh, t, d). -/
def qk (A B : SQ.Idx → EReal) : SO.Idx → EReal := fun i =>
  ∑ d : Fin 64, A (ix3 (⟨(i 0).val, (i 0).isLt⟩ : Fin 24) (⟨(i 1).val, (i 1).isLt⟩ : Fin 2048) d)
    * B (ix3 (⟨(i 0).val, (i 0).isLt⟩ : Fin 24) (⟨(i 2).val, (i 2).isLt⟩ : Fin 2048) d)

theorem rot_even (X : SX.Idx → EReal) (W : SW.Idx → EReal) (C Sn : ST.Idx → EReal) (p : Fin 2) (s : Fin 2048) (b : Fin 2)
    (h : Fin 12) (d : Fin 64) (hd : d.val % 2 = 0) :
    rot X W C Sn p s b h d = mix X W s b (row0 p h d) * C (tix s d) - mix X W s b (row1 p h d) * Sn (tix s d) := by
  unfold rot; rw [if_pos hd]

theorem rot_odd (X : SX.Idx → EReal) (W : SW.Idx → EReal) (C Sn : ST.Idx → EReal) (p : Fin 2) (s : Fin 2048) (b : Fin 2)
    (h : Fin 12) (d : Fin 64) (hd : ¬ d.val % 2 = 0) :
    rot X W C Sn p s b h d = mix X W s b (row0 p h d) * Sn (tix s d) + mix X W s b (row1 p h d) * C (tix s d) := by
  unfold rot; rw [if_neg hd]

/-- A product with a difference from zero is the negated product: a·c + (0 − b)·e = a·c − b·e on the extended reals. -/
theorem add_zero_sub_mul (a b c e : EReal) : a * c + (0 - b) * e = a * c - b * e := by
  rw [zero_sub, EReal.neg_mul, sub_eq_add_neg]

end Cert.RopeSpec

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Scores.lean ====
/-
  The second pipelined region (the batched product of the rotated queries and keys) read as a value.

  The region runs over a grid of 24 × 2 × 2 points. Point t has head slot bh = t / 4, query half si = t / 2 % 2 and
  key half sj = t % 2. It reads rows si·1024 … si·1024 + 1023 of head slot bh of the query array A [24, 2048, 64],
  rows sj·1024 … sj·1024 + 1023 of head slot bh of the key array B [24, 2048, 64], and writes the [1, 1024, 1024]
  block at block index (bh, si, sj) of the score array [24, 2048, 2048]: entry (0, r, q) of that block is
  Σ_d A(bh, si·1024 + r, d) · B(bh, sj·1024 + q, d).

  * `pay_apply`   — the body's payload at an entry: drop the unit axis of both blocks, transpose the key block, multiply
                     into a zero accumulator, add the unit axis back; entry (0, r, q) is Σ_d x0(0, r, d) · x1(0, q, d).
  * `idx_facts`   — the three windows' block indices at every point, decided once over the 96 points.
  * `iblk0_apply`, `iblk1_apply` — an entry of the query (key) block at point t is the array's entry at
                     (bh, half·1024 + r, d): a block's coordinate is index × size + 1 × the coordinate inside the block.
  * `block_entry` — an entry of the product of two such blocks is the batched product `RopeSpec.qk A B` at the array index
                     it is written to.
  * `flushed_eq`  — what point t writes back is block t of `RopeSpec.qk A B`.
  * `mem_blk`, `cover` — index (bh, s, u) lies in the block of point bh·4 + (s / 1024)·2 + u / 1024, so the blocks
                     cover the score array.
  * `scores`      — the score array after the region is `RopeSpec.qk A B`.
-/
import proofs.«120772_j11879879542592_2_alg».proof.Proof.Gen.KernelIdeal.Frame
import proofs.«120772_j11879879542592_2_alg».proof.Proof.Spec
import proofs.«120772_j11879879542592_2_alg».proof.Proof.LibMatmul
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx

namespace Cert.KernelIdeal.Scores
open Cert.KernelIdeal Cert.KernelIdeal.Gen

/-- The product's dimension numbers: a [1024, 64] matrix times a [64, 1024] matrix, contracting the left operand's
    columns with the right operand's rows. -/
abbrev D := dot_S1024x64_S64x1024_S1024x1024_1_0_0_1_n_n

/-- Where the operands are read for result entry i and contraction position q: the left operand at
    (row of i, q), the right operand at (q, column of i). -/
theorem lhs0 (i : S1024x1024.Idx) (q : D.contr.Idx) : (D.lhsIdx i q 0).val = (i 0).val := by
  unfold DotDims.lhsIdx
  rw [dif_neg (show ¬(0 : Fin S1024x64.rank) ∈ D.lhsBatch by decide), dif_pos (show (0 : Fin S1024x64.rank) ∈ D.lhsNonContracting by decide)]
  rfl
theorem lhs1 (i : S1024x1024.Idx) (q : D.contr.Idx) : (D.lhsIdx i q 1).val = (q ⟨0, by decide⟩).val :=
  D.lhsIdx_val_of_single rfl i q
theorem rhs0 (i : S1024x1024.Idx) (q : D.contr.Idx) : (D.rhsIdx i q 0).val = (q ⟨0, by decide⟩).val :=
  D.rhsIdx_val_of_single rfl i q
theorem rhs1 (i : S1024x1024.Idx) (q : D.contr.Idx) : (D.rhsIdx i q 1).val = (i 1).val := by
  unfold DotDims.rhsIdx
  rw [dif_neg (show ¬(1 : Fin S64x1024.rank) ∈ D.rhsBatch by decide), dif_pos (show (1 : Fin S64x1024.rank) ∈ D.rhsNonContracting by decide)]
  rfl

/-- A [1, 1024, 64] block with its unit axis dropped, at row r and feature d, is the block at (0, r, d). -/
theorem drop_apply (x : Vec Ideal S1x1024x64 .bf16) (r : Fin 1024) (d : Fin 64) :
    shapeCast S1024x64 x shapeCasts_S1x1024x64_S1024x64 (ix2 r d) = x (ix3 (0 : Fin 1) r d) := by
  refine (shapeCast_dropUnit_apply _ _ _ _).trans (congrArg x (funext fun a => ?_))
  match a with
  | ⟨0, _⟩ => rfl
  | ⟨1, _⟩ => rfl
  | ⟨2, _⟩ => rfl

/-- The body's payload at entry (0, r, q): Σ_d x0(0, r, d) · x1(0, q, d). -/
theorem pay_apply (x0 x1 : Vec Ideal S1x1024x64 .bf16) (r q : Fin 1024) :
    k1_pay1 (F := Ideal) x0 x1 (ix3 (0 : Fin 1) r q) = ∑ d : Fin 64, x0 (ix3 (0 : Fin 1) r d) * x1 (ix3 (0 : Fin 1) q d) := by
  unfold k1_pay1
  refine (shapeCast_addUnit_apply _ _ _ _).trans ?_
  have ej : (fun a : Fin 2 => ix3 (0 : Fin 1) r q a.succ) = ix2 r q := funext fun a => by
    match a with
    | ⟨0, _⟩ => rfl
    | ⟨1, _⟩ => rfl
  rw [ej]
  refine (Cert.PlainDot.matmul_zero_apply D none rfl rfl lhs0 lhs1 rhs0 rhs1 _ _ r q).trans ?_
  refine Finset.sum_congr rfl fun d _ => ?_
  refine congrArg₂ (· * ·) (drop_apply x0 r d) ?_
  refine (transpose_apply _ _ _ (ix2 d q) (ix2 q d) (fun b => ?_)).trans (drop_apply x1 q d)
  match b with
  | ⟨0, _⟩ => rfl
  | ⟨1, _⟩ => rfl

variable (V : (c : Dev nD) → (b : Ref sig .tc) → Buf (Elt Ideal) ((c : Thread nD τ).loc b))

/-- The zero offsets of a whole-buffer access, as a constant function. -/
theorem hz3 : (![0, 0, 0] : Fin 3 → Nat) = fun _ => 0 := funext fun a => by fin_cases a <;> rfl

/-- The block indices at a grid point, decided once over the 96 points: point t has head slot t / 4, query half
    t / 2 % 2 and key half t % 2; the query window sits at (head slot, query half, 0), the key window at
    (head slot, key half, 0), the score window at (head slot, query half, key half). -/
theorem idx_facts : ∀ t : Fin cfg1.N,
    win1_2.index t (0 : Fin 3) = t.val / 4 ∧ win1_2.index t (1 : Fin 3) = t.val / 2 % 2 ∧ win1_2.index t (2 : Fin 3) = t.val % 2
    ∧ win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = t.val % 2 ∧ win1_1.index t (2 : Fin 3) = 0 :=
  (by decide +kernel : ∀ t : Fin grid1.N, _)

/-- An entry of the query block at point t is the query array's entry at (t / 4, (t / 2 % 2)·1024 + r, d). -/
theorem iblk0_apply (c : Dev nD) (t : Fin cfg1.N) (r : Fin 1024) (d : Fin 64) (k : Cert.RopeSpec.SQ.Idx)
    (hk0 : (k 0).val = t.val / 4) (hk1 : (k 1).val = t.val / 2 % 2 * 1024 + r.val) (hk2 : (k 2).val = d.val) :
    (iblk1 V c 0 t : Vec Ideal S1x1024x64 .bf16) (ix3 (0 : Fin 1) r d) = (V c main_v17_0 : Cert.RopeSpec.SQ.Idx → EReal) k := by
  obtain ⟨-, -, -, e0, e1, e2, -, -, -⟩ := idx_facts t
  unfold iblk1
  rw [View.read_apply]
  show V c main_v17_0 _ = V c main_v17_0 _
  congr 1
  funext a
  apply Fin.ext
  match a with
  | ⟨0, _⟩ => show win1_0.index t (0 : Fin 3) * 1 + 1 * 0 = (k 0).val; omega
  | ⟨1, _⟩ => show win1_0.index t (1 : Fin 3) * 1024 + 1 * r.val = (k 1).val; omega
  | ⟨2, _⟩ => show win1_0.index t (2 : Fin 3) * 64 + 1 * d.val = (k 2).val; omega

/-- An entry of the key block at point t is the key array's entry at (t / 4, (t % 2)·1024 + r, d). -/
theorem iblk1_apply (c : Dev nD) (t : Fin cfg1.N) (r : Fin 1024) (d : Fin 64) (k : Cert.RopeSpec.SQ.Idx)
    (hk0 : (k 0).val = t.val / 4) (hk1 : (k 1).val = t.val % 2 * 1024 + r.val) (hk2 : (k 2).val = d.val) :
    (iblk1 V c 1 t : Vec Ideal S1x1024x64 .bf16) (ix3 (0 : Fin 1) r d) = (V c main_v17_1 : Cert.RopeSpec.SQ.Idx → EReal) k := by
  obtain ⟨-, -, -, -, -, -, e0, e1, e2⟩ := idx_facts t
  unfold iblk1
  rw [View.read_apply]
  show V c main_v17_1 _ = V c main_v17_1 _
  congr 1
  funext a
  apply Fin.ext
  match a with
  | ⟨0, _⟩ => show win1_1.index t (0 : Fin 3) * 1 + 1 * 0 = (k 0).val; omega
  | ⟨1, _⟩ => show win1_1.index t (1 : Fin 3) * 1024 + 1 * r.val = (k 1).val; omega
  | ⟨2, _⟩ => show win1_1.index t (2 : Fin 3) * 64 + 1 * d.val = (k 2).val; omega

/-- One entry of a point's product block is the batched product's entry at the array index it is written to:
    the block's query rows are rows si·1024 … of head slot bh of A, its key rows are rows sj·1024 … of the same
    head slot of B, and entry (0, r, q) lands at (bh, si·1024 + r, sj·1024 + q). -/
theorem block_entry (A B : Cert.RopeSpec.SQ.Idx → EReal) (x0 x1 : Vec Ideal S1x1024x64 .bf16) (bh si sj : Nat)
    (h0 : ∀ (r : Fin 1024) (d : Fin 64) (k : Cert.RopeSpec.SQ.Idx), (k 0).val = bh → (k 1).val = si * 1024 + r.val → (k 2).val = d.val →
      x0 (ix3 (0 : Fin 1) r d) = A k)
    (h1 : ∀ (r : Fin 1024) (d : Fin 64) (k : Cert.RopeSpec.SQ.Idx), (k 0).val = bh → (k 1).val = sj * 1024 + r.val → (k 2).val = d.val →
      x1 (ix3 (0 : Fin 1) r d) = B k)
    (j : S1x1024x1024.Idx) (i : Cert.RopeSpec.SO.Idx)
    (hi0 : (i 0).val = bh) (hi1 : (i 1).val = si * 1024 + (j 1).val) (hi2 : (i 2).val = sj * 1024 + (j 2).val) :
    k1_pay1 (F := Ideal) x0 x1 j = Cert.RopeSpec.qk A B i := by
  have hj0 : (j 0).val < 1 := (j 0).isLt
  have hj1 : (j 1).val < 1024 := (j 1).isLt
  have hj2 : (j 2).val < 1024 := (j 2).isLt
  have ej : j = ix3 (0 : Fin 1) (⟨(j 1).val, hj1⟩ : Fin 1024) (⟨(j 2).val, hj2⟩ : Fin 1024) := funext fun a => Fin.ext (by
    match a with
    | ⟨0, _⟩ => show (j 0).val = 0; omega
    | ⟨1, _⟩ => rfl
    | ⟨2, _⟩ => rfl)
  refine (congrArg (k1_pay1 (F := Ideal) x0 x1) ej).trans ?_
  refine (pay_apply x0 x1 _ _).trans ?_
  unfold Cert.RopeSpec.qk
  refine Finset.sum_congr rfl fun d _ => ?_
  refine congrArg₂ (· * ·) (h0 _ d _ hi0 hi1 rfl) (h1 _ d _ hi0 hi2 rfl)

/-- WHAT POINT t WRITES BACK is block t of the batched product of the two arrays as the region finds them. -/
theorem flushed_eq (c : Dev nD) (t : Fin cfg1.N) :
    (dat1 (F := Ideal) V c).flushed 2 t
      = ((cfg1.win 2).blk t).view.read (Elt Ideal) (Cert.RopeSpec.qk (V c main_v17_0) (V c main_v17_1)) := by
  show (cfg1.win 2).cut (grid1.coords t) ((dat1 (F := Ideal) V c).after 2 t) = _
  rw [after1_2]
  unfold out1_2
  rw [View.canon_unit_zero hz3]
  simp only [View.ld_unit_zero (S := S1x1024x64) hz3]
  obtain ⟨e0, e1, e2, -, -, -, -, -, -⟩ := idx_facts t
  funext j
  rw [View.read_apply]
  refine block_entry (V c main_v17_0) (V c main_v17_1) (iblk1 V c 0 t) (iblk1 V c 1 t) (t.val / 4) (t.val / 2 % 2) (t.val % 2)
    (fun r d k hk0 hk1 hk2 => iblk0_apply V c t r d k hk0 hk1 hk2)
    (fun r d k hk0 hk1 hk2 => iblk1_apply V c t r d k hk0 hk1 hk2) j _ ?_ ?_ ?_
  · show win1_2.index t (0 : Fin 3) * 1 + 1 * (j 0).val = t.val / 4
    have hj0 : (j 0).val < 1 := (j 0).isLt
    omega
  · show win1_2.index t (1 : Fin 3) * 1024 + 1 * (j 1).val = t.val / 2 % 2 * 1024 + (j 1).val
    omega
  · show win1_2.index t (2 : Fin 3) * 1024 + 1 * (j 2).val = t.val % 2 * 1024 + (j 2).val
    omega

/-- An index of the score array is in point t's block iff each coordinate is in the block's range on its axis. -/
theorem mem_blk (t : Fin cfg1.N) (i : S24x2048x2048.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v18).slice (win1_2.rect t)).set ↔ _
  rw [View.set_slice_whole, Rect.mem_set_unit]
  exact Iff.rfl

/-- Every index (bh, s, u) of the score array is in the block of point bh·4 + (s / 1024)·2 + u / 1024. -/
theorem cover (i : S24x2048x2048.Idx) : ∃ t : Fin cfg1.N, (cfg1.win 2).flush t = true ∧ i ∈ ((cfg1.win 2).blk t).view.set := by
  have hi0 : (i 0).val < 24 := (i 0).isLt
  have hi1 : (i 1).val < 2048 := (i 1).isLt
  have hi2 : (i 2).val < 2048 := (i 2).isLt
  have hN : cfg1.N = 96 := N_1
  refine ⟨⟨(i 0).val * 4 + (i 1).val / 1024 * 2 + (i 2).val / 1024, by omega⟩, flush1_2 _, ?_⟩
  rw [mem_blk]
  obtain ⟨e0, e1, e2, -, -, -, -, -, -⟩ := idx_facts ⟨(i 0).val * 4 + (i 1).val / 1024 * 2 + (i 2).val / 1024, by omega⟩
  intro a
  match a with
  | ⟨0, _⟩ =>
    show win1_2.index _ (0 : Fin 3) * 1 ≤ (i 0).val ∧ (i 0).val < win1_2.index _ (0 : Fin 3) * 1 + 1
    rw [e0]; show ((i 0).val * 4 + (i 1).val / 1024 * 2 + (i 2).val / 1024) / 4 * 1 ≤ (i 0).val ∧ (i 0).val < ((i 0).val * 4 + (i 1).val / 1024 * 2 + (i 2).val / 1024) / 4 * 1 + 1
    omega
  | ⟨1, _⟩ =>
    show win1_2.index _ (1 : Fin 3) * 1024 ≤ (i 1).val ∧ (i 1).val < win1_2.index _ (1 : Fin 3) * 1024 + 1024
    rw [e1]; show ((i 0).val * 4 + (i 1).val / 1024 * 2 + (i 2).val / 1024) / 2 % 2 * 1024 ≤ (i 1).val ∧ (i 1).val < ((i 0).val * 4 + (i 1).val / 1024 * 2 + (i 2).val / 1024) / 2 % 2 * 1024 + 1024
    omega
  | ⟨2, _⟩ =>
    show win1_2.index _ (2 : Fin 3) * 1024 ≤ (i 2).val ∧ (i 2).val < win1_2.index _ (2 : Fin 3) * 1024 + 1024
    rw [e2]; show ((i 0).val * 4 + (i 1).val / 1024 * 2 + (i 2).val / 1024) % 2 * 1024 ≤ (i 2).val ∧ (i 2).val < ((i 0).val * 4 + (i 1).val / 1024 * 2 + (i 2).val / 1024) % 2 * 1024 + 1024
    omega

/-- THE SCORE ARRAY after the region: the batched product of the two arrays it was entered with. -/
theorem scores (c : Dev nD) :
    (dat1 (F := Ideal) V c).arrAt 2 cfg1.N = Cert.RopeSpec.qk (V c main_v17_0) (V c main_v17_1) :=
  (dat1 (F := Ideal) V c).arrAt_eq_of_cover 2 (Cert.RopeSpec.qk (V c main_v17_0) (V c main_v17_1))
    (fun t _ => flushed_eq V c t) cover

end Cert.KernelIdeal.Scores
end
-- ==== Proof.RopePay.lean ====
/-
  The first region's arithmetic at one entry.

  At a grid point the body holds a block xb of 256 positions of one batch's activations ([256, 1, 768]), the whole
  transposed weight w ([768, 1536]: column h·128 + p·64 + d is head h, part p, feature d) and the blocks cb, sb of the
  tiled cosine and sine tables ([256, 1536]). It forms the projection  mixB(r, c) = Σ_k xb(r, 0, k) · w(k, c),  and from
  it the rotated row: at an even column c the neighbour c + 1 negated, at an odd column the neighbour c − 1 (both taken
  around the end of the row: two lane rotations, by 1535 and by 1, chosen by the lowest bit of the column number),
      ropeB(r, c) = mixB(r, c) · cb(r, c) + (c even ? 0 − mixB(r, c + 1) : mixB(r, c − 1)) · sb(r, c).
  Each stored piece is a 64-column slice of that matrix, cast to the [1, 256, 64] shape of one head slot.
-/
import proofs.«120772_j11879879542592_2_alg».proof.Proof.Gen.KernelIdeal.Skeleton
import proofs.«120772_j11879879542592_2_alg».proof.Proof.LibMatmul
import Idealize.ShloMosaic.Lib.Pipeline.Value
import Idealize.ShloMosaic.Lib.ValueIdx
import Idealize.ShloMosaic.Lib.KernelVsHost

noncomputable section

namespace Cert.KernelIdeal.Rope

open Cert.KernelIdeal Cert.KernelIdeal.Gen Idealize.ShloMosaic Idealize.ShloMosaic.ValueIdx

/-- The projection of row `r` of the block onto column `c` of the transposed weight. -/
def mixB (xb : S256x1x768.Idx → EReal) (w : S768x1536.Idx → EReal) (r : Fin 256) (c : Fin 1536) : EReal :=
  ∑ k : Fin 768, xb (ix3 r (0 : Fin 1) k) * w (ix2 k c)

/-- The next column, around the end of the row. -/
abbrev nxt (c : Fin 1536) : Fin 1536 := ⟨(c.val + 1) % 1536, Nat.mod_lt _ (by omega)⟩
/-- The previous column, around the end of the row. -/
abbrev prv (c : Fin 1536) : Fin 1536 := ⟨(c.val + 1535) % 1536, Nat.mod_lt _ (by omega)⟩

/-- The rotated projection at row `r`, column `c`. -/
def ropeB (cb sb : S256x1536.Idx → EReal) (w : S768x1536.Idx → EReal) (xb : S256x1x768.Idx → EReal) (r : Fin 256) (c : Fin 1536) :
    EReal :=
  mixB xb w r c * cb (ix2 r c) + (if c.val % 2 = 0 then 0 - mixB xb w r (nxt c) else mixB xb w r (prv c)) * sb (ix2 r c)

/-! ## The product -/

local notation "DOT" => dot_S256x768_S768x1536_S256x1536_1_0_0_1_n_n

/-- The body's matrix product of the block (its unit axis dropped) with the weight, into zero. -/
def prod (w : FVec Ideal S768x1536 .bf16) (xb : Vec Ideal S256x1x768 .f32) : FVec Ideal S256x1536 .f32 :=
  matmul dot_S256x768_S768x1536_S256x1536_1_0_0_1_n_n none
    (truncf .bf16 (shapeCast S256x768 xb Facts₀.shapeCasts_S256x1x768_S256x768) Facts₀.bitsLt_bf16_f32) w
    (constant S256x1536 .f32 0x00000000#32)

theorem dot_l0 (i : S256x1536.Idx) (q : dot_S256x768_S768x1536_S256x1536_1_0_0_1_n_n.contr.Idx) :
    (dot_S256x768_S768x1536_S256x1536_1_0_0_1_n_n.lhsIdx i q 0).val = (i 0).val := by
  unfold DotDims.lhsIdx
  rw [dif_neg (show ¬(0 : Fin S256x768.rank) ∈ dot_S256x768_S768x1536_S256x1536_1_0_0_1_n_n.lhsBatch by decide),
    dif_pos (show (0 : Fin S256x768.rank) ∈ dot_S256x768_S768x1536_S256x1536_1_0_0_1_n_n.lhsNonContracting by decide)]
  rfl
theorem dot_l1 (i : S256x1536.Idx) (q : dot_S256x768_S768x1536_S256x1536_1_0_0_1_n_n.contr.Idx) :
    (dot_S256x768_S768x1536_S256x1536_1_0_0_1_n_n.lhsIdx i q 1).val = (q ⟨0, by decide⟩).val :=
  dot_S256x768_S768x1536_S256x1536_1_0_0_1_n_n.lhsIdx_val_of_single rfl i q
theorem dot_r0 (i : S256x1536.Idx) (q : dot_S256x768_S768x1536_S256x1536_1_0_0_1_n_n.contr.Idx) :
    (dot_S256x768_S768x1536_S256x1536_1_0_0_1_n_n.rhsIdx i q 0).val = (q ⟨0, by decide⟩).val :=
  dot_S256x768_S768x1536_S256x1536_1_0_0_1_n_n.rhsIdx_val_of_single rfl i q
theorem dot_r1 (i : S256x1536.Idx) (q : dot_S256x768_S768x1536_S256x1536_1_0_0_1_n_n.contr.Idx) :
    (dot_S256x768_S768x1536_S256x1536_1_0_0_1_n_n.rhsIdx i q 1).val = (i 1).val := by
  unfold DotDims.rhsIdx
  rw [dif_neg (show ¬(1 : Fin S768x1536.rank) ∈ dot_S256x768_S768x1536_S256x1536_1_0_0_1_n_n.rhsBatch by decide),
    dif_pos (show (1 : Fin S768x1536.rank) ∈ dot_S256x768_S768x1536_S256x1536_1_0_0_1_n_n.rhsNonContracting by decide)]
  rfl

/-- Entry (r, c) of the product is the projection. -/
theorem prod_apply (w : FVec Ideal S768x1536 .bf16) (xb : Vec Ideal S256x1x768 .f32) (r : Fin 256) (c : Fin 1536) :
    prod w xb (ix2 r c) = mixB xb w r c := by
  unfold prod mixB
  refine (Cert.PlainDot.matmul_zero_apply (n := 256) (K := 768) (m := 1536) dot_S256x768_S768x1536_S256x1536_1_0_0_1_n_n none rfl rfl
    dot_l0 dot_l1 dot_r0 dot_r1 _ w r c).trans ?_
  refine Finset.sum_congr rfl fun k _ => ?_
  refine congrArg (· * w (ix2 k c)) ?_
  show shapeCast S256x768 xb Facts₀.shapeCasts_S256x1x768_S256x768 (ix2 r k) = _
  refine shapeCast_apply xb _ (ix2 r k) (ix3 r (0 : Fin 1) k) ?_
  rw [Shape.rowMajor_val_three, Shape.rowMajor_val_two]
  show (r.val * 1 + (0 : Fin 1).val) * 768 + k.val = r.val * 768 + k.val
  simp

/-! ## The parity mask -/

/-- The lowest bit of the column number, compared with zero: one exactly at the even columns. -/
theorem mask_apply (r : Fin 256) (c : Fin 1536) :
    k0_pay3 (ix2 r c) = if c.val % 2 = 0 then 1#1 else 0#1 := by
  unfold k0_pay3
  show IntOp.cmpi .eq (IntOp.andi (iota .tc S256x1536 32 [1] Facts₀.iota_S256x1536_d1_w32 (ix2 r c)) 1#32) 0#32 = _
  rw [iota_single_apply]
  show BitVec.ofBool ((BitVec.ofNat 32 c.val &&& 1#32) == 0#32) = _
  have h : (BitVec.ofNat 32 c.val &&& 1#32) = BitVec.ofNat 32 (c.val % 2) := by
    apply BitVec.eq_of_toNat_eq
    simp only [BitVec.toNat_and, BitVec.toNat_ofNat]
    have hc : c.val < 1536 := c.isLt
    have e1 : c.val % 2 ^ 32 = c.val := Nat.mod_eq_of_lt (by omega)
    have e2 : 1 % 2 ^ 32 = 1 := by norm_num
    have e3 : c.val % 2 % 2 ^ 32 = c.val % 2 := Nat.mod_eq_of_lt (by omega)
    rw [e1, e2, e3, Nat.and_one_is_mod]
  rw [h]
  rcases Nat.mod_two_eq_zero_or_one c.val with h0 | h1
  · rw [h0, if_pos rfl]; rfl
  · rw [h1, if_neg (by decide)]; rfl

/-! ## The rotated row -/

/-- The body's combination of a projected block `m` with the table blocks. -/
def rowRot (m cb sb : FVec Ideal S256x1536 .f32) : FVec Ideal S256x1536 .f32 :=
  addf (mulf m cb)
    (mulf (select k0_pay3
      (subf (broadcast S256x1536 (Scalar.ofBits .f32 0x00000000#32)) (dynamicRotate 1 1535#32 none m Facts₀.rotates_S256x1536_d1))
      (dynamicRotate 1 1#32 none m Facts₀.rotates_S256x1536_d1)) sb)

/-- A rotation by 1535 of a row of 1536 reads the next column, around the end. -/
theorem rot_next (m : FVec Ideal S256x1536 .f32) (r : Fin 256) (c : Fin 1536) :
    dynamicRotate 1 1535#32 none m Facts₀.rotates_S256x1536_d1 (ix2 r c) = m (ix2 r (nxt c)) :=
  dynamicRotate_apply (1 : Fin 2) 1535#32 m _ (ix2 r c) (ix2 r (nxt c)) (fun b => by
    by_cases hb : b = 1
    · subst hb; rw [if_pos rfl]
      show (c.val + 1) % 1536 = (c.val + 1536 - 1535 % 1536) % 1536
      omega
    · rw [if_neg hb]
      have hb2 : b.val < 2 := b.isLt
      have h0 : b = 0 := Fin.ext (by have : b.val ≠ 1 := fun h => hb (Fin.ext h); show b.val = 0; omega)
      subst h0; rfl)

/-- A rotation by 1 reads the previous column, around the end. -/
theorem rot_prev (m : FVec Ideal S256x1536 .f32) (r : Fin 256) (c : Fin 1536) :
    dynamicRotate 1 1#32 none m Facts₀.rotates_S256x1536_d1 (ix2 r c) = m (ix2 r (prv c)) :=
  dynamicRotate_apply (1 : Fin 2) 1#32 m _ (ix2 r c) (ix2 r (prv c)) (fun b => by
    by_cases hb : b = 1
    · subst hb; rw [if_pos rfl]
      show (c.val + 1535) % 1536 = (c.val + 1536 - 1 % 1536) % 1536
      omega
    · rw [if_neg hb]
      have hb2 : b.val < 2 := b.isLt
      have h0 : b = 0 := Fin.ext (by have : b.val ≠ 1 := fun h => hb (Fin.ext h); show b.val = 0; omega)
      subst h0; rfl)

theorem rowRot_apply (m cb sb : FVec Ideal S256x1536 .f32) (r : Fin 256) (c : Fin 1536) :
    rowRot m cb sb (ix2 r c)
      = m (ix2 r c) * cb (ix2 r c) + (if c.val % 2 = 0 then 0 - m (ix2 r (nxt c)) else m (ix2 r (prv c))) * sb (ix2 r c) := by
  show m (ix2 r c) * cb (ix2 r c)
      + Scalar.select (k0_pay3 (ix2 r c))
          (Ideal.ofBits .f32 0x00000000#32 - dynamicRotate 1 1535#32 none m Facts₀.rotates_S256x1536_d1 (ix2 r c))
          (dynamicRotate 1 1#32 none m Facts₀.rotates_S256x1536_d1 (ix2 r c)) * sb (ix2 r c) = _
  rw [mask_apply, rot_next, rot_prev, Ideal.ofBits_zero_f32]
  by_cases h : c.val % 2 = 0
  · rw [if_pos h, if_pos h, select_one]
  · rw [if_neg h, if_neg h, select_zero]

/-- Batch 0's rotated block is the combination of its product. -/
theorem pay7_eq (v5 v7 : Vec Ideal S256x1536 .f32) (v9 : Vec Ideal S768x1536 .bf16) (v11 : Vec Ideal S256x1x768 .f32) :
    k0_pay7 (F := Ideal) v5 v7 v9 v11 = rowRot (prod (k0_pay6 v9) v11) (k0_pay4 v5) (k0_pay5 v7) := rfl

/-- Batch 1's likewise. -/
theorem pay38_eq (v6 v8 : FVec Ideal S256x1536 .f32) (v10 : FVec Ideal S768x1536 .bf16) (v143 : Vec Ideal S256x1x768 .f32) :
    k0_pay38 (F := Ideal) k0_pay3 v6 v8 v10 v143 = rowRot (prod v10 v143) v6 v8 := rfl

theorem pay4_eq (v : Vec Ideal S256x1536 .f32) : k0_pay4 (F := Ideal) v = v := shapeCast_self v _
theorem pay5_eq (v : Vec Ideal S256x1536 .f32) : k0_pay5 (F := Ideal) v = v := shapeCast_self v _
theorem pay6_eq (v : Vec Ideal S768x1536 .bf16) : k0_pay6 (F := Ideal) v = v := shapeCast_self v _

/-- Either batch's rotated block at an entry, from the loaded blocks. -/
theorem rope_apply (cb sb : Vec Ideal S256x1536 .f32) (w : Vec Ideal S768x1536 .bf16) (xb : Vec Ideal S256x1x768 .f32)
    (r : Fin 256) (c : Fin 1536) :
    rowRot (prod w xb) cb sb (ix2 r c) = ropeB cb sb w xb r c := by
  rw [rowRot_apply, prod_apply, prod_apply, prod_apply]
  rfl

/-! ## A stored piece -/

/-- The 64 columns from `off` of a [256, 1536] matrix, as a [1, 256, 64] piece: entry (0, r, d) is entry (r, off + d). -/
theorem slice_apply (off : ℕ) (hoff : off + 64 ≤ 1536) (R : FVec Ideal S256x1536 .f32) (hs : S256x1536.Slices ![0, off] S256x64)
    (x : S1x256x64.Idx) :
    shapeCast S1x256x64 (truncf .bf16 (extractStridedSlice S256x64 ![0, off] R hs) Facts₀.bitsLt_bf16_f32)
        Facts₀.shapeCasts_S256x64_S1x256x64 x
      = R (ix2 (⟨(x 1).val, (x 1).isLt⟩ : Fin 256)
          (⟨off + (x 2).val, by have h2 : (x 2).val < 64 := (x 2).isLt; omega⟩ : Fin 1536)) := by
  refine (shapeCast_addUnit_apply ![256, 64] _ _ x).trans ?_
  show extractStridedSlice S256x64 ![0, off] R hs (fun a => x a.succ) = _
  refine extractStridedSlice_apply ![0, off] R hs _ _ (fun a => ?_)
  match a with
  | ⟨0, _⟩ => show (x 1).val = 0 + (x 1).val; omega
  | ⟨1, _⟩ => rfl

end Cert.KernelIdeal.Rope

end
-- ==== Proof.RopeBlock.lean ====
/-
  What the first region's body leaves in its two staging buffers, as ONE function of the buffer index.

  The body stores 24 pieces into each output buffer [24, 256, 64]: head slot n = b·12 + h receives the 64 columns from
  h·128 (the queries' buffer) or from h·128 + 64 (the keys' buffer) of batch b's rotated block. So entry (n, r, d) of
  the buffer is  ropeB(r, (n mod 12)·128 + e + d)  computed from the slab of batch n / 12, with e = 0 or 64: every piece
  is a block of that one function, and the pieces tile the buffer.
-/
import proofs.«120772_j11879879542592_2_alg».proof.Proof.Gen.KernelIdeal.Frame
import proofs.«120772_j11879879542592_2_alg».proof.Proof.RopePay

set_option maxRecDepth 16384

noncomputable section

namespace Cert.KernelIdeal.Rope

open Cert.KernelIdeal Cert.KernelIdeal.Gen Idealize.ShloMosaic Idealize.ShloMosaic.ValueIdx

/-- Batch `b`'s slab [256, 1, 768] of a staged activation block [256, 2, 768]. -/
def slab (x0 : S256x2x768.Idx → EReal) (b : Fin 2) : S256x1x768.Idx → EReal :=
  fun j => x0 (ix3 (⟨(j 0).val, (j 0).isLt⟩ : Fin 256) b (⟨(j 2).val, (j 2).isLt⟩ : Fin 768))

theorem ld_b0 (x0 : Vec Ideal S256x2x768 .f32) : View.ld x0 r0_2 = slab x0 0 := by
  funext j
  show x0 (r0_2.idx j) = _
  unfold slab
  refine congrArg x0 (funext fun a => Fin.ext ?_)
  have h1 : (j 1).val < 1 := (j 1).isLt
  match a with
  | ⟨0, _⟩ => show 0 + 1 * (j 0).val = (j 0).val; omega
  | ⟨1, _⟩ => show 0 + 1 * (j 1).val = 0; omega
  | ⟨2, _⟩ => show 0 + 1 * (j 2).val = (j 2).val; omega

theorem ld_b1 (x0 : Vec Ideal S256x2x768 .f32) : View.ld x0 r0_15 = slab x0 1 := by
  funext j
  show x0 (r0_15.idx j) = _
  unfold slab
  refine congrArg x0 (funext fun a => Fin.ext ?_)
  have h1 : (j 1).val < 1 := (j 1).isLt
  match a with
  | ⟨0, _⟩ => show 0 + 1 * (j 0).val = (j 0).val; omega
  | ⟨1, _⟩ => show 1 + 1 * (j 1).val = 1; omega
  | ⟨2, _⟩ => show 0 + 1 * (j 2).val = (j 2).val; omega

theorem zero2 : (![0, 0] : Fin 2 → ℕ) = fun _ => 0 := by
  funext a; match a with | ⟨0, _⟩ => rfl | ⟨1, _⟩ => rfl

/-- Batch 0's rotated block, from the staged blocks. -/
theorem R0_apply (x0 : Vec Ideal S256x2x768 .f32) (x1 : Vec Ideal S768x1536 .bf16) (x2 x3 : Vec Ideal S256x1536 .f32)
    (r : Fin 256) (c : Fin 1536) :
    k0_pay7 (F := Ideal) (View.ld x2 r0_0) (View.ld x3 r0_0) (View.ld x1 r0_1) (View.ld x0 r0_2) (ix2 r c)
      = ropeB x2 x3 x1 (slab x0 0) r c := by
  rw [pay7_eq, pay4_eq, pay5_eq, pay6_eq, View.ld_unit_zero (S := S256x1536) zero2, View.ld_unit_zero (S := S256x1536) zero2,
    View.ld_unit_zero (S := S768x1536) zero2, rope_apply, ld_b0]

/-- Batch 1's. -/
theorem R1_apply (x0 : Vec Ideal S256x2x768 .f32) (x1 : Vec Ideal S768x1536 .bf16) (x2 x3 : Vec Ideal S256x1536 .f32)
    (r : Fin 256) (c : Fin 1536) :
    k0_pay38 (F := Ideal) k0_pay3 (k0_pay4 (View.ld x2 r0_0)) (k0_pay5 (View.ld x3 r0_0)) (k0_pay6 (View.ld x1 r0_1)) (View.ld x0 r0_15)
        (ix2 r c)
      = ropeB x2 x3 x1 (slab x0 1) r c := by
  rw [pay38_eq, pay4_eq, pay5_eq, pay6_eq, View.ld_unit_zero (S := S256x1536) zero2, View.ld_unit_zero (S := S256x1536) zero2,
    View.ld_unit_zero (S := S768x1536) zero2, rope_apply, ld_b1]

/-- The buffer's contents as one function of its index: entry (n, r, d) is the rotated projection of batch n / 12 at row r,
    column (n mod 12)·128 + e + d. -/
def headsB (e : ℕ) (he : e + 64 ≤ 128) (x0 : S256x2x768.Idx → EReal) (x1 : S768x1536.Idx → EReal)
    (x2 x3 : S256x1536.Idx → EReal) : S24x256x64.Idx → EReal := fun y =>
  ropeB x2 x3 x1 (slab x0 ⟨(y 0).val / 12, by have h0 : (y 0).val < 24 := (y 0).isLt; omega⟩) ⟨(y 1).val, (y 1).isLt⟩
    ⟨(y 0).val % 12 * 128 + e + (y 2).val, by
      have h0 : (y 0).val < 24 := (y 0).isLt
      have h2 : (y 2).val < 64 := (y 2).isLt
      omega⟩

/-- The piece stored at head slot `n` — the 64 columns from `off = (n mod 12)·128 + e` of batch `b = n / 12`'s rotated block —
    is the block of `headsB` under the slot's rectangle. -/
theorem piece_eq (e : ℕ) (he : e + 64 ≤ 128) (n : ℕ) (hn : n < 24) (b : Fin 2) (hb : b.val = n / 12) (off : ℕ)
    (hoff : off = n % 12 * 128 + e)
    (x0 : Vec Ideal S256x2x768 .f32) (x1 : Vec Ideal S768x1536 .bf16) (x2 x3 : Vec Ideal S256x1536 .f32)
    (R : FVec Ideal S256x1536 .f32) (hR : ∀ r c, R (ix2 r c) = ropeB x2 x3 x1 (slab x0 b) r c)
    (hs : S256x1536.Slices ![0, off] S256x64)
    (inb : ∀ a, (![n, 0, 0] : Fin 3 → ℕ) a + S1x256x64.size a ≤ S24x256x64.size a) (x : S1x256x64.Idx) :
    shapeCast S1x256x64 (truncf .bf16 (extractStridedSlice S256x64 ![0, off] R hs) Facts₀.bitsLt_bf16_f32)
        Facts₀.shapeCasts_S256x64_S1x256x64 x
      = headsB e he x0 x1 x2 x3 ((Rect.unit (s := S24x256x64) ![n, 0, 0] S1x256x64.size inb).emb x) := by
  have hx0 : (x 0).val = 0 := by have : (x 0).val < 1 := (x 0).isLt; omega
  have h2 : (x 2).val < 64 := (x 2).isLt
  refine (slice_apply off (by omega) R hs x).trans ?_
  rw [hR]
  unfold headsB
  have key : ∀ (b b' : Fin 2) (r r' : Fin 256) (c c' : Fin 1536), b = b' → r = r' → c = c' →
      ropeB x2 x3 x1 (slab x0 b) r c = ropeB x2 x3 x1 (slab x0 b') r' c' := by
    intro b b' r r' c c' hb hr hc; subst hb; subst hr; subst hc; rfl
  refine key _ _ _ _ _ _ (Fin.ext ?_) (Fin.ext ?_) (Fin.ext ?_)
  · show b.val = (n + 1 * (x 0).val) / 12
    rw [hx0, hb]; omega
  · show (x 1).val = 0 + 1 * (x 1).val
    omega
  · show off + (x 2).val = (n + 1 * (x 0).val) % 12 * 128 + e + (0 + 1 * (x 2).val)
    rw [hx0, hoff]; omega

/-- The queries' staging buffer after the body. -/
theorem out4_apply (x0 : Vec Ideal S256x2x768 .f32) (x1 : Vec Ideal S768x1536 .bf16) (x2 x3 : Vec Ideal S256x1536 .f32)
    (y : S24x256x64.Idx) :
    out0_4 (F := Ideal) x0 x1 x2 x3 y = headsB 0 (by omega) x0 x1 x2 x3 y := by
  unfold out0_4
  refine View.canon_apply_of_pieces (Val := Elt Ideal) (S := S24x256x64) (e := .bf16) (headsB 0 (by omega) x0 x1 x2 x3) _ ?_ y (cover0_4 _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact piece_eq 0 (by omega) 23 (by omega) 1 (by decide) 1408 (by decide) x0 x1 x2 x3 _ (R1_apply x0 x1 x2 x3)
      Facts₀.slices_S256x1536_o0_1408_S256x64 Facts₀.inb_S24x256x64_S1x256x64_23_0_0
  · exact piece_eq 0 (by omega) 22 (by omega) 1 (by decide) 1280 (by decide) x0 x1 x2 x3 _ (R1_apply x0 x1 x2 x3)
      Facts₀.slices_S256x1536_o0_1280_S256x64 Facts₀.inb_S24x256x64_S1x256x64_22_0_0
  · exact piece_eq 0 (by omega) 21 (by omega) 1 (by decide) 1152 (by decide) x0 x1 x2 x3 _ (R1_apply x0 x1 x2 x3)
      Facts₀.slices_S256x1536_o0_1152_S256x64 Facts₀.inb_S24x256x64_S1x256x64_21_0_0
  · exact piece_eq 0 (by omega) 20 (by omega) 1 (by decide) 1024 (by decide) x0 x1 x2 x3 _ (R1_apply x0 x1 x2 x3)
      Facts₀.slices_S256x1536_o0_1024_S256x64 Facts₀.inb_S24x256x64_S1x256x64_20_0_0
  · exact piece_eq 0 (by omega) 19 (by omega) 1 (by decide) 896 (by decide) x0 x1 x2 x3 _ (R1_apply x0 x1 x2 x3)
      Facts₀.slices_S256x1536_o0_896_S256x64 Facts₀.inb_S24x256x64_S1x256x64_19_0_0
  · exact piece_eq 0 (by omega) 18 (by omega) 1 (by decide) 768 (by decide) x0 x1 x2 x3 _ (R1_apply x0 x1 x2 x3)
      Facts₀.slices_S256x1536_o0_768_S256x64 Facts₀.inb_S24x256x64_S1x256x64_18_0_0
  · exact piece_eq 0 (by omega) 17 (by omega) 1 (by decide) 640 (by decide) x0 x1 x2 x3 _ (R1_apply x0 x1 x2 x3)
      Facts₀.slices_S256x1536_o0_640_S256x64 Facts₀.inb_S24x256x64_S1x256x64_17_0_0
  · exact piece_eq 0 (by omega) 16 (by omega) 1 (by decide) 512 (by decide) x0 x1 x2 x3 _ (R1_apply x0 x1 x2 x3)
      Facts₀.slices_S256x1536_o0_512_S256x64 Facts₀.inb_S24x256x64_S1x256x64_16_0_0
  · exact piece_eq 0 (by omega) 15 (by omega) 1 (by decide) 384 (by decide) x0 x1 x2 x3 _ (R1_apply x0 x1 x2 x3)
      Facts₀.slices_S256x1536_o0_384_S256x64 Facts₀.inb_S24x256x64_S1x256x64_15_0_0
  · exact piece_eq 0 (by omega) 14 (by omega) 1 (by decide) 256 (by decide) x0 x1 x2 x3 _ (R1_apply x0 x1 x2 x3)
      Facts₀.slices_S256x1536_o0_256_S256x64 Facts₀.inb_S24x256x64_S1x256x64_14_0_0
  · exact piece_eq 0 (by omega) 13 (by omega) 1 (by decide) 128 (by decide) x0 x1 x2 x3 _ (R1_apply x0 x1 x2 x3)
      Facts₀.slices_S256x1536_o0_128_S256x64 Facts₀.inb_S24x256x64_S1x256x64_13_0_0
  · exact piece_eq 0 (by omega) 12 (by omega) 1 (by decide) 0 (by decide) x0 x1 x2 x3 _ (R1_apply x0 x1 x2 x3)
      Facts₀.slices_S256x1536_o0_0_S256x64 Facts₀.inb_S24x256x64_S1x256x64_12_0_0
  · exact piece_eq 0 (by omega) 11 (by omega) 0 (by decide) 1408 (by decide) x0 x1 x2 x3 _ (R0_apply x0 x1 x2 x3)
      Facts₀.slices_S256x1536_o0_1408_S256x64 Facts₀.inb_S24x256x64_S1x256x64_11_0_0
  · exact piece_eq 0 (by omega) 10 (by omega) 0 (by decide) 1280 (by decide) x0 x1 x2 x3 _ (R0_apply x0 x1 x2 x3)
      Facts₀.slices_S256x1536_o0_1280_S256x64 Facts₀.inb_S24x256x64_S1x256x64_10_0_0
  · exact piece_eq 0 (by omega) 9 (by omega) 0 (by decide) 1152 (by decide) x0 x1 x2 x3 _ (R0_apply x0 x1 x2 x3)
      Facts₀.slices_S256x1536_o0_1152_S256x64 Facts₀.inb_S24x256x64_S1x256x64_9_0_0
  · exact piece_eq 0 (by omega) 8 (by omega) 0 (by decide) 1024 (by decide) x0 x1 x2 x3 _ (R0_apply x0 x1 x2 x3)
      Facts₀.slices_S256x1536_o0_1024_S256x64 Facts₀.inb_S24x256x64_S1x256x64_8_0_0
  · exact piece_eq 0 (by omega) 7 (by omega) 0 (by decide) 896 (by decide) x0 x1 x2 x3 _ (R0_apply x0 x1 x2 x3)
      Facts₀.slices_S256x1536_o0_896_S256x64 Facts₀.inb_S24x256x64_S1x256x64_7_0_0
  · exact piece_eq 0 (by omega) 6 (by omega) 0 (by decide) 768 (by decide) x0 x1 x2 x3 _ (R0_apply x0 x1 x2 x3)
      Facts₀.slices_S256x1536_o0_768_S256x64 Facts₀.inb_S24x256x64_S1x256x64_6_0_0
  · exact piece_eq 0 (by omega) 5 (by omega) 0 (by decide) 640 (by decide) x0 x1 x2 x3 _ (R0_apply x0 x1 x2 x3)
      Facts₀.slices_S256x1536_o0_640_S256x64 Facts₀.inb_S24x256x64_S1x256x64_5_0_0
  · exact piece_eq 0 (by omega) 4 (by omega) 0 (by decide) 512 (by decide) x0 x1 x2 x3 _ (R0_apply x0 x1 x2 x3)
      Facts₀.slices_S256x1536_o0_512_S256x64 Facts₀.inb_S24x256x64_S1x256x64_4_0_0
  · exact piece_eq 0 (by omega) 3 (by omega) 0 (by decide) 384 (by decide) x0 x1 x2 x3 _ (R0_apply x0 x1 x2 x3)
      Facts₀.slices_S256x1536_o0_384_S256x64 Facts₀.inb_S24x256x64_S1x256x64_3_0_0
  · exact piece_eq 0 (by omega) 2 (by omega) 0 (by decide) 256 (by decide) x0 x1 x2 x3 _ (R0_apply x0 x1 x2 x3)
      Facts₀.slices_S256x1536_o0_256_S256x64 Facts₀.inb_S24x256x64_S1x256x64_2_0_0
  · exact piece_eq 0 (by omega) 1 (by omega) 0 (by decide) 128 (by decide) x0 x1 x2 x3 _ (R0_apply x0 x1 x2 x3)
      Facts₀.slices_S256x1536_o0_128_S256x64 Facts₀.inb_S24x256x64_S1x256x64_1_0_0
  · exact piece_eq 0 (by omega) 0 (by omega) 0 (by decide) 0 (by decide) x0 x1 x2 x3 _ (R0_apply x0 x1 x2 x3)
      Facts₀.slices_S256x1536_o0_0_S256x64 Facts₀.inb_S24x256x64_S1x256x64_0_0_0

/-- The keys' staging buffer after the body. -/
theorem out5_apply (x0 : Vec Ideal S256x2x768 .f32) (x1 : Vec Ideal S768x1536 .bf16) (x2 x3 : Vec Ideal S256x1536 .f32)
    (y : S24x256x64.Idx) :
    out0_5 (F := Ideal) x0 x1 x2 x3 y = headsB 64 (by omega) x0 x1 x2 x3 y := by
  unfold out0_5
  refine View.canon_apply_of_pieces (Val := Elt Ideal) (S := S24x256x64) (e := .bf16) (headsB 64 (by omega) x0 x1 x2 x3) _ ?_ y (cover0_5 _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact piece_eq 64 (by omega) 23 (by omega) 1 (by decide) 1472 (by decide) x0 x1 x2 x3 _ (R1_apply x0 x1 x2 x3)
      Facts₀.slices_S256x1536_o0_1472_S256x64 Facts₀.inb_S24x256x64_S1x256x64_23_0_0
  · exact piece_eq 64 (by omega) 22 (by omega) 1 (by decide) 1344 (by decide) x0 x1 x2 x3 _ (R1_apply x0 x1 x2 x3)
      Facts₀.slices_S256x1536_o0_1344_S256x64 Facts₀.inb_S24x256x64_S1x256x64_22_0_0
  · exact piece_eq 64 (by omega) 21 (by omega) 1 (by decide) 1216 (by decide) x0 x1 x2 x3 _ (R1_apply x0 x1 x2 x3)
      Facts₀.slices_S256x1536_o0_1216_S256x64 Facts₀.inb_S24x256x64_S1x256x64_21_0_0
  · exact piece_eq 64 (by omega) 20 (by omega) 1 (by decide) 1088 (by decide) x0 x1 x2 x3 _ (R1_apply x0 x1 x2 x3)
      Facts₀.slices_S256x1536_o0_1088_S256x64 Facts₀.inb_S24x256x64_S1x256x64_20_0_0
  · exact piece_eq 64 (by omega) 19 (by omega) 1 (by decide) 960 (by decide) x0 x1 x2 x3 _ (R1_apply x0 x1 x2 x3)
      Facts₀.slices_S256x1536_o0_960_S256x64 Facts₀.inb_S24x256x64_S1x256x64_19_0_0
  · exact piece_eq 64 (by omega) 18 (by omega) 1 (by decide) 832 (by decide) x0 x1 x2 x3 _ (R1_apply x0 x1 x2 x3)
      Facts₀.slices_S256x1536_o0_832_S256x64 Facts₀.inb_S24x256x64_S1x256x64_18_0_0
  · exact piece_eq 64 (by omega) 17 (by omega) 1 (by decide) 704 (by decide) x0 x1 x2 x3 _ (R1_apply x0 x1 x2 x3)
      Facts₀.slices_S256x1536_o0_704_S256x64 Facts₀.inb_S24x256x64_S1x256x64_17_0_0
  · exact piece_eq 64 (by omega) 16 (by omega) 1 (by decide) 576 (by decide) x0 x1 x2 x3 _ (R1_apply x0 x1 x2 x3)
      Facts₀.slices_S256x1536_o0_576_S256x64 Facts₀.inb_S24x256x64_S1x256x64_16_0_0
  · exact piece_eq 64 (by omega) 15 (by omega) 1 (by decide) 448 (by decide) x0 x1 x2 x3 _ (R1_apply x0 x1 x2 x3)
      Facts₀.slices_S256x1536_o0_448_S256x64 Facts₀.inb_S24x256x64_S1x256x64_15_0_0
  · exact piece_eq 64 (by omega) 14 (by omega) 1 (by decide) 320 (by decide) x0 x1 x2 x3 _ (R1_apply x0 x1 x2 x3)
      Facts₀.slices_S256x1536_o0_320_S256x64 Facts₀.inb_S24x256x64_S1x256x64_14_0_0
  · exact piece_eq 64 (by omega) 13 (by omega) 1 (by decide) 192 (by decide) x0 x1 x2 x3 _ (R1_apply x0 x1 x2 x3)
      Facts₀.slices_S256x1536_o0_192_S256x64 Facts₀.inb_S24x256x64_S1x256x64_13_0_0
  · exact piece_eq 64 (by omega) 12 (by omega) 1 (by decide) 64 (by decide) x0 x1 x2 x3 _ (R1_apply x0 x1 x2 x3)
      Facts₀.slices_S256x1536_o0_64_S256x64 Facts₀.inb_S24x256x64_S1x256x64_12_0_0
  · exact piece_eq 64 (by omega) 11 (by omega) 0 (by decide) 1472 (by decide) x0 x1 x2 x3 _ (R0_apply x0 x1 x2 x3)
      Facts₀.slices_S256x1536_o0_1472_S256x64 Facts₀.inb_S24x256x64_S1x256x64_11_0_0
  · exact piece_eq 64 (by omega) 10 (by omega) 0 (by decide) 1344 (by decide) x0 x1 x2 x3 _ (R0_apply x0 x1 x2 x3)
      Facts₀.slices_S256x1536_o0_1344_S256x64 Facts₀.inb_S24x256x64_S1x256x64_10_0_0
  · exact piece_eq 64 (by omega) 9 (by omega) 0 (by decide) 1216 (by decide) x0 x1 x2 x3 _ (R0_apply x0 x1 x2 x3)
      Facts₀.slices_S256x1536_o0_1216_S256x64 Facts₀.inb_S24x256x64_S1x256x64_9_0_0
  · exact piece_eq 64 (by omega) 8 (by omega) 0 (by decide) 1088 (by decide) x0 x1 x2 x3 _ (R0_apply x0 x1 x2 x3)
      Facts₀.slices_S256x1536_o0_1088_S256x64 Facts₀.inb_S24x256x64_S1x256x64_8_0_0
  · exact piece_eq 64 (by omega) 7 (by omega) 0 (by decide) 960 (by decide) x0 x1 x2 x3 _ (R0_apply x0 x1 x2 x3)
      Facts₀.slices_S256x1536_o0_960_S256x64 Facts₀.inb_S24x256x64_S1x256x64_7_0_0
  · exact piece_eq 64 (by omega) 6 (by omega) 0 (by decide) 832 (by decide) x0 x1 x2 x3 _ (R0_apply x0 x1 x2 x3)
      Facts₀.slices_S256x1536_o0_832_S256x64 Facts₀.inb_S24x256x64_S1x256x64_6_0_0
  · exact piece_eq 64 (by omega) 5 (by omega) 0 (by decide) 704 (by decide) x0 x1 x2 x3 _ (R0_apply x0 x1 x2 x3)
      Facts₀.slices_S256x1536_o0_704_S256x64 Facts₀.inb_S24x256x64_S1x256x64_5_0_0
  · exact piece_eq 64 (by omega) 4 (by omega) 0 (by decide) 576 (by decide) x0 x1 x2 x3 _ (R0_apply x0 x1 x2 x3)
      Facts₀.slices_S256x1536_o0_576_S256x64 Facts₀.inb_S24x256x64_S1x256x64_4_0_0
  · exact piece_eq 64 (by omega) 3 (by omega) 0 (by decide) 448 (by decide) x0 x1 x2 x3 _ (R0_apply x0 x1 x2 x3)
      Facts₀.slices_S256x1536_o0_448_S256x64 Facts₀.inb_S24x256x64_S1x256x64_3_0_0
  · exact piece_eq 64 (by omega) 2 (by omega) 0 (by decide) 320 (by decide) x0 x1 x2 x3 _ (R0_apply x0 x1 x2 x3)
      Facts₀.slices_S256x1536_o0_320_S256x64 Facts₀.inb_S24x256x64_S1x256x64_2_0_0
  · exact piece_eq 64 (by omega) 1 (by omega) 0 (by decide) 192 (by decide) x0 x1 x2 x3 _ (R0_apply x0 x1 x2 x3)
      Facts₀.slices_S256x1536_o0_192_S256x64 Facts₀.inb_S24x256x64_S1x256x64_1_0_0
  · exact piece_eq 64 (by omega) 0 (by omega) 0 (by decide) 64 (by decide) x0 x1 x2 x3 _ (R0_apply x0 x1 x2 x3)
      Facts₀.slices_S256x1536_o0_64_S256x64 Facts₀.inb_S24x256x64_S1x256x64_0_0_0

end Cert.KernelIdeal.Rope

end
-- ==== Proof.RopeFn.lean ====
/-
  The first region's two result arrays as functions of the four arrays the region finds.

  X is the activations [2048, 2, 768], Wt the transposed weight [768, 1536], Cb and Sb the tiled tables [2048, 1536]. With
      mixA(s, b, c) = Σ_k X(s, b, k) · Wt(k, c)
      ropeA(s, b, c) = mixA(s, b, c) · Cb(s, c) + (c even ? 0 − mixA(s, b, c + 1) : mixA(s, b, c − 1)) · Sb(s, c)
  (neighbours taken around the end of the row), entry (n, s, d) of the queries' array is ropeA(s, n / 12, (n mod 12)·128 + d)
  and of the keys' array ropeA(s, n / 12, (n mod 12)·128 + 64 + d).
-/
import proofs.«120772_j11879879542592_2_alg».proof.Proof.RopePay

noncomputable section

namespace Cert.KernelIdeal.Rope

open Cert.KernelIdeal Idealize.ShloMosaic Idealize.ShloMosaic.ValueIdx

/-- The projection of position `s`, batch `b` onto column `c` of the transposed weight. -/
def mixA (X : S2048x2x768.Idx → EReal) (Wt : S768x1536.Idx → EReal) (s : Fin 2048) (b : Fin 2) (c : Fin 1536) : EReal :=
  ∑ k : Fin 768, X (ix3 s b k) * Wt (ix2 k c)

/-- The rotated projection at position `s`, batch `b`, column `c`. -/
def ropeA (X : S2048x2x768.Idx → EReal) (Wt : S768x1536.Idx → EReal) (Cb Sb : S2048x1536.Idx → EReal) (s : Fin 2048) (b : Fin 2)
    (c : Fin 1536) : EReal :=
  mixA X Wt s b c * Cb (ix2 s c) + (if c.val % 2 = 0 then 0 - mixA X Wt s b (nxt c) else mixA X Wt s b (prv c)) * Sb (ix2 s c)

/-- A result array of the region: entry (n, s, d) is the rotated projection of batch n / 12 at position s, column
    (n mod 12)·128 + e + d (e = 0 the queries, e = 64 the keys). -/
def headsA (e : ℕ) (he : e + 64 ≤ 128) (X : S2048x2x768.Idx → EReal) (Wt : S768x1536.Idx → EReal)
    (Cb Sb : S2048x1536.Idx → EReal) : S24x2048x64.Idx → EReal := fun i =>
  ropeA X Wt Cb Sb ⟨(i 1).val, (i 1).isLt⟩ ⟨(i 0).val / 12, by have h0 : (i 0).val < 24 := (i 0).isLt; omega⟩
    ⟨(i 0).val % 12 * 128 + e + (i 2).val, by
      have h0 : (i 0).val < 24 := (i 0).isLt
      have h2 : (i 2).val < 64 := (i 2).isLt
      omega⟩

end Cert.KernelIdeal.Rope

end
-- ==== Proof.RopeArr.lean ====
/-
  The first region's two result arrays, from the blocks its points write back.

  Point t of the 8 stages positions 256t … 256t + 255 of the activations, of the tiled cosine table and of the tiled sine
  table, and the whole transposed weight; it writes back block (0, t, 0) of each result array: array entry (n, 256t + r, d)
  is block entry (n, r, d). The block function of the staged blocks is the array function of the whole arrays read at
  position 256t + r, and the 8 blocks tile the 2048 positions, so each result array ends holding the array function.
-/
import proofs.«120772_j11879879542592_2_alg».proof.Proof.Gen.KernelIdeal.Frame
import proofs.«120772_j11879879542592_2_alg».proof.Proof.RopeBlock
import proofs.«120772_j11879879542592_2_alg».proof.Proof.RopeFn
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Rope

open Cert.KernelIdeal Cert.KernelIdeal.Gen

/-! ## The block function is the array function at the block's positions -/

section Pure

variable (x0 : S256x2x768.Idx → EReal) (x1 : S768x1536.Idx → EReal) (x2 x3 : S256x1536.Idx → EReal)
  (X : S2048x2x768.Idx → EReal) (Wt : S768x1536.Idx → EReal) (Cb Sb : S2048x1536.Idx → EReal)
  (p : ℕ) (hp : p + 256 ≤ 2048)

/-- The projection of row `r` of a block that holds positions `p … p + 255` is the projection of position `p + r`. -/
theorem mixB_eq_mixA
    (h0 : ∀ (r : Fin 256) (b : Fin 2) (k : Fin 768), x0 (ix3 r b k) = X (ix3 (⟨p + r.val, by omega⟩ : Fin 2048) b k))
    (h1 : ∀ (k : Fin 768) (c : Fin 1536), x1 (ix2 k c) = Wt (ix2 k c))
    (b : Fin 2) (r : Fin 256) (c : Fin 1536) :
    mixB (slab x0 b) x1 r c = mixA X Wt (⟨p + r.val, by omega⟩ : Fin 2048) b c := by
  unfold mixB mixA
  refine Finset.sum_congr rfl fun k _ => ?_
  show x0 (ix3 r b k) * x1 (ix2 k c) = _
  rw [h0, h1]

/-- The rotated projection likewise: the tables' blocks hold the same positions. -/
theorem ropeB_eq_ropeA
    (h0 : ∀ (r : Fin 256) (b : Fin 2) (k : Fin 768), x0 (ix3 r b k) = X (ix3 (⟨p + r.val, by omega⟩ : Fin 2048) b k))
    (h1 : ∀ (k : Fin 768) (c : Fin 1536), x1 (ix2 k c) = Wt (ix2 k c))
    (h2 : ∀ (r : Fin 256) (c : Fin 1536), x2 (ix2 r c) = Cb (ix2 (⟨p + r.val, by omega⟩ : Fin 2048) c))
    (h3 : ∀ (r : Fin 256) (c : Fin 1536), x3 (ix2 r c) = Sb (ix2 (⟨p + r.val, by omega⟩ : Fin 2048) c))
    (b : Fin 2) (r : Fin 256) (c : Fin 1536) :
    ropeB x2 x3 x1 (slab x0 b) r c = ropeA X Wt Cb Sb (⟨p + r.val, by omega⟩ : Fin 2048) b c := by
  unfold ropeB ropeA
  rw [mixB_eq_mixA x0 x1 X Wt p hp h0 h1 b r c, mixB_eq_mixA x0 x1 X Wt p hp h0 h1 b r (nxt c),
    mixB_eq_mixA x0 x1 X Wt p hp h0 h1 b r (prv c), h2, h3]

/-- Entry `y` of the block function is entry `i` of the array function when `i` is `y` moved `p` positions along. -/
theorem headsB_eq_headsA (e : ℕ) (he : e + 64 ≤ 128)
    (h0 : ∀ (r : Fin 256) (b : Fin 2) (k : Fin 768), x0 (ix3 r b k) = X (ix3 (⟨p + r.val, by omega⟩ : Fin 2048) b k))
    (h1 : ∀ (k : Fin 768) (c : Fin 1536), x1 (ix2 k c) = Wt (ix2 k c))
    (h2 : ∀ (r : Fin 256) (c : Fin 1536), x2 (ix2 r c) = Cb (ix2 (⟨p + r.val, by omega⟩ : Fin 2048) c))
    (h3 : ∀ (r : Fin 256) (c : Fin 1536), x3 (ix2 r c) = Sb (ix2 (⟨p + r.val, by omega⟩ : Fin 2048) c))
    (y : S24x256x64.Idx) (i : S24x2048x64.Idx)
    (hi0 : (i 0).val = (y 0).val) (hi1 : (i 1).val = p + (y 1).val) (hi2 : (i 2).val = (y 2).val) :
    headsB e he x0 x1 x2 x3 y = headsA e he X Wt Cb Sb i := by
  unfold headsB headsA
  refine (ropeB_eq_ropeA x0 x1 x2 x3 X Wt Cb Sb p hp h0 h1 h2 h3 _ _ _).trans ?_
  congr 1
  · exact Fin.ext hi1.symm
  · exact Fin.ext (by show (y 0).val / 12 = (i 0).val / 12; rw [hi0])
  · exact Fin.ext (by show (y 0).val % 12 * 128 + e + (y 2).val = (i 0).val % 12 * 128 + e + (i 2).val; rw [hi0, hi2])

end Pure

/-! ## The blocks of the region's windows -/

variable (V : (c : Dev nD) → (b : Ref sig .tc) → Buf (Elt Ideal) ((c : Thread nD τ).loc b))

/-- The printed index maps, decided over the 8 points: the activations' and the tables' blocks move along the positions
    with the point, the weight's block is the whole array, the results' blocks move along the positions. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

/-- A point's block of positions lies inside the 2048. -/
theorem rows_le0 (t : Fin cfg0.N) : 256 * t.val + 256 ≤ 2048 := by
  have h8 : cfg0.N = 8 := N_0
  have := t.isLt
  omega

/-- The activations' block at point `t` is positions `256t … 256t + 255` of the activations. -/
theorem blk0_apply (c : Dev nD) (t : Fin cfg0.N) (r : Fin 256) (b : Fin 2) (k : Fin 768) :
    (iblk0 V c 0 t : S256x2x768.Idx → EReal) (ix3 r b k)
      = (V c main_arg0 : S2048x2x768.Idx → EReal) (ix3 (⟨256 * t.val + r.val, by have := rows_le0 t; omega⟩ : Fin 2048) b k) := by
  obtain ⟨e0, e1, e2, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 3) * 256 + 1 * r.val = 256 * t.val + r.val; omega
  | ⟨1, _⟩ => show win0_0.index t (1 : Fin 3) * 2 + 1 * b.val = b.val; omega
  | ⟨2, _⟩ => show win0_0.index t (2 : Fin 3) * 768 + 1 * k.val = k.val; omega

/-- The weight's block is the whole transposed weight. -/
theorem blk1_apply (c : Dev nD) (t : Fin cfg0.N) (k : Fin 768) (col : Fin 1536) :
    (iblk0 V c 1 t : S768x1536.Idx → EReal) (ix2 k col) = (V c main_v4 : S768x1536.Idx → EReal) (ix2 k col) := by
  obtain ⟨-, -, -, e0, e1, -⟩ := idx_facts0 t
  unfold iblk0
  rw [View.read_apply]
  show V c main_v4 _ = V c main_v4 _
  refine congrArg (V c main_v4) (funext fun a => Fin.ext ?_)
  match a with
  | ⟨0, _⟩ => show win0_1.index t (0 : Fin 2) * 768 + 1 * k.val = k.val; omega
  | ⟨1, _⟩ => show win0_1.index t (1 : Fin 2) * 1536 + 1 * col.val = col.val; omega

/-- The cosine table's block at point `t` is positions `256t … 256t + 255` of the tiled table. -/
theorem blk2_apply (c : Dev nD) (t : Fin cfg0.N) (r : Fin 256) (col : Fin 1536) :
    (iblk0 V c 2 t : S256x1536.Idx → EReal) (ix2 r col)
      = (V c main_v13 : S2048x1536.Idx → EReal) (ix2 (⟨256 * t.val + r.val, by have := rows_le0 t; omega⟩ : Fin 2048) col) := by
  obtain ⟨-, -, -, -, -, e0, e1, -⟩ := idx_facts0 t
  unfold iblk0
  rw [View.read_apply]
  show V c main_v13 _ = V c main_v13 _
  refine congrArg (V c main_v13) (funext fun a => Fin.ext ?_)
  match a with
  | ⟨0, _⟩ => show win0_2.index t (0 : Fin 2) * 256 + 1 * r.val = 256 * t.val + r.val; omega
  | ⟨1, _⟩ => show win0_2.index t (1 : Fin 2) * 1536 + 1 * col.val = col.val; omega

/-- The sine table's likewise. -/
theorem blk3_apply (c : Dev nD) (t : Fin cfg0.N) (r : Fin 256) (col : Fin 1536) :
    (iblk0 V c 3 t : S256x1536.Idx → EReal) (ix2 r col)
      = (V c main_v16 : S2048x1536.Idx → EReal) (ix2 (⟨256 * t.val + r.val, by have := rows_le0 t; omega⟩ : Fin 2048) col) := by
  obtain ⟨-, -, -, -, -, -, -, e0, e1, -⟩ := idx_facts0 t
  unfold iblk0
  rw [View.read_apply]
  show V c main_v16 _ = V c main_v16 _
  refine congrArg (V c main_v16) (funext fun a => Fin.ext ?_)
  match a with
  | ⟨0, _⟩ => show win0_3.index t (0 : Fin 2) * 256 + 1 * r.val = 256 * t.val + r.val; omega
  | ⟨1, _⟩ => show win0_3.index t (1 : Fin 2) * 1536 + 1 * col.val = col.val; omega

/-! ## What a point writes back, and the arrays after the last point -/

/-- Point `t` writes back block `t` of the queries' array function of the arrays the region finds. -/
theorem flushed4_eq (c : Dev nD) (t : Fin cfg0.N) :
    (dat0 (F := Ideal) V c).flushed 4 t
      = ((cfg0.win 4).blk t).view.read (Elt Ideal)
          (headsA 0 (by omega) (V c main_arg0) (V c main_v4) (V c main_v13) (V c main_v16)) := by
  obtain ⟨-, -, -, -, -, -, -, -, -, e0, e1, e2, -⟩ := idx_facts0 t
  show (cfg0.win 4).cut (grid0.coords t) ((dat0 V c).after 4 t) = _
  rw [after0_4]
  funext y
  refine (out4_apply _ _ _ _ _).trans ?_
  rw [View.read_apply]
  refine headsB_eq_headsA _ _ _ _ _ _ _ _ (256 * t.val) (rows_le0 t) 0 (by omega)
    (blk0_apply V c t) (blk1_apply V c t) (blk2_apply V c t) (blk3_apply V c t) _ _ ?_ ?_ ?_
  · show win0_4.index t (0 : Fin 3) * 24 + 1 * (y 0).val = (y 0).val; omega
  · show win0_4.index t (1 : Fin 3) * 256 + 1 * (y 1).val = 256 * t.val + (y 1).val; omega
  · show win0_4.index t (2 : Fin 3) * 64 + 1 * (y 2).val = (y 2).val; omega

/-- Point `t` writes back block `t` of the keys' array function. -/
theorem flushed5_eq (c : Dev nD) (t : Fin cfg0.N) :
    (dat0 (F := Ideal) V c).flushed 5 t
      = ((cfg0.win 5).blk t).view.read (Elt Ideal)
          (headsA 64 (by omega) (V c main_arg0) (V c main_v4) (V c main_v13) (V c main_v16)) := by
  obtain ⟨-, -, -, -, -, -, -, -, -, -, -, -, e0, e1, e2⟩ := idx_facts0 t
  show (cfg0.win 5).cut (grid0.coords t) ((dat0 V c).after 5 t) = _
  rw [after0_5]
  funext y
  refine (out5_apply _ _ _ _ _).trans ?_
  rw [View.read_apply]
  refine headsB_eq_headsA _ _ _ _ _ _ _ _ (256 * t.val) (rows_le0 t) 64 (by omega)
    (blk0_apply V c t) (blk1_apply V c t) (blk2_apply V c t) (blk3_apply V c t) _ _ ?_ ?_ ?_
  · show win0_5.index t (0 : Fin 3) * 24 + 1 * (y 0).val = (y 0).val; omega
  · show win0_5.index t (1 : Fin 3) * 256 + 1 * (y 1).val = 256 * t.val + (y 1).val; omega
  · show win0_5.index t (2 : Fin 3) * 64 + 1 * (y 2).val = (y 2).val; omega

/-- The point whose block holds position `s`: `s / 256`. -/
def pointOf0 (s : Fin 2048) : Fin cfg0.N := ⟨s.val / 256, by rw [show cfg0.N = 8 from N_0]; omega⟩

/-- Every entry of the queries' array is in the block of the point that holds its position. -/
theorem covered4 (i : S24x2048x64.Idx) :
    ∃ t : Fin cfg0.N, (cfg0.win 4).flush t = true ∧ i ∈ ((cfg0.win 4).blk t).view.set := by
  have h0 : (i 0).val < 24 := (i 0).isLt
  have h1 : (i 1).val < 2048 := (i 1).isLt
  have h2 : (i 2).val < 64 := (i 2).isLt
  refine ⟨pointOf0 ⟨(i 1).val, h1⟩, flush0_4 _, ?_⟩
  obtain ⟨-, -, -, -, -, -, -, -, -, e0, e1, e2, -⟩ := idx_facts0 (pointOf0 ⟨(i 1).val, h1⟩)
  have e1' : win0_4.index (pointOf0 ⟨(i 1).val, h1⟩) (1 : Fin 3) = (i 1).val / 256 := e1
  show i ∈ ((View.whole main_v17_0).slice (win0_4.rect (pointOf0 ⟨(i 1).val, h1⟩))).set
  rw [View.set_slice_whole, Rect.mem_set_unit]
  intro a
  match a with
  | ⟨0, _⟩ =>
    show win0_4.index (pointOf0 ⟨(i 1).val, h1⟩) (0 : Fin 3) * 24 ≤ (i 0).val
      ∧ (i 0).val < win0_4.index (pointOf0 ⟨(i 1).val, h1⟩) (0 : Fin 3) * 24 + 24
    omega
  | ⟨1, _⟩ =>
    show win0_4.index (pointOf0 ⟨(i 1).val, h1⟩) (1 : Fin 3) * 256 ≤ (i 1).val
      ∧ (i 1).val < win0_4.index (pointOf0 ⟨(i 1).val, h1⟩) (1 : Fin 3) * 256 + 256
    omega
  | ⟨2, _⟩ =>
    show win0_4.index (pointOf0 ⟨(i 1).val, h1⟩) (2 : Fin 3) * 64 ≤ (i 2).val
      ∧ (i 2).val < win0_4.index (pointOf0 ⟨(i 1).val, h1⟩) (2 : Fin 3) * 64 + 64
    omega

/-- Every entry of the keys' array likewise. -/
theorem covered5 (i : S24x2048x64.Idx) :
    ∃ t : Fin cfg0.N, (cfg0.win 5).flush t = true ∧ i ∈ ((cfg0.win 5).blk t).view.set := by
  have h0 : (i 0).val < 24 := (i 0).isLt
  have h1 : (i 1).val < 2048 := (i 1).isLt
  have h2 : (i 2).val < 64 := (i 2).isLt
  refine ⟨pointOf0 ⟨(i 1).val, h1⟩, flush0_5 _, ?_⟩
  obtain ⟨-, -, -, -, -, -, -, -, -, -, -, -, e0, e1, e2⟩ := idx_facts0 (pointOf0 ⟨(i 1).val, h1⟩)
  have e1' : win0_5.index (pointOf0 ⟨(i 1).val, h1⟩) (1 : Fin 3) = (i 1).val / 256 := e1
  show i ∈ ((View.whole main_v17_1).slice (win0_5.rect (pointOf0 ⟨(i 1).val, h1⟩))).set
  rw [View.set_slice_whole, Rect.mem_set_unit]
  intro a
  match a with
  | ⟨0, _⟩ =>
    show win0_5.index (pointOf0 ⟨(i 1).val, h1⟩) (0 : Fin 3) * 24 ≤ (i 0).val
      ∧ (i 0).val < win0_5.index (pointOf0 ⟨(i 1).val, h1⟩) (0 : Fin 3) * 24 + 24
    omega
  | ⟨1, _⟩ =>
    show win0_5.index (pointOf0 ⟨(i 1).val, h1⟩) (1 : Fin 3) * 256 ≤ (i 1).val
      ∧ (i 1).val < win0_5.index (pointOf0 ⟨(i 1).val, h1⟩) (1 : Fin 3) * 256 + 256
    omega
  | ⟨2, _⟩ =>
    show win0_5.index (pointOf0 ⟨(i 1).val, h1⟩) (2 : Fin 3) * 64 ≤ (i 2).val
      ∧ (i 2).val < win0_5.index (pointOf0 ⟨(i 1).val, h1⟩) (2 : Fin 3) * 64 + 64
    omega

/-- The queries' array after the last point is the array function of the arrays the region finds. -/
theorem rope_q (c : Dev nD) :
    (dat0 (F := Ideal) V c).arrAt 4 cfg0.N
      = headsA 0 (by omega) (V c main_arg0) (V c main_v4) (V c main_v13) (V c main_v16) :=
  (dat0 (F := Ideal) V c).arrAt_eq_of_cover 4 _ (fun t _ => flushed4_eq V c t) covered4

/-- The keys' array likewise. -/
theorem rope_k (c : Dev nD) :
    (dat0 (F := Ideal) V c).arrAt 5 cfg0.N
      = headsA 64 (by omega) (V c main_arg0) (V c main_v4) (V c main_v13) (V c main_v16) :=
  (dat0 (F := Ideal) V c).arrAt_eq_of_cover 5 _ (fun t _ => flushed5_eq V c t) covered5

end Cert.KernelIdeal.Rope

end
-- ==== Proof.HostIn.lean ====
import proofs.«120772_j11879879542592_2_alg».proof.Proof.Gen.KernelIdeal.Frame
import Idealize.ShloMosaic.Lib.Pipeline.Value
import Idealize.ShloMosaic.Lib.ValueIdx
import Idealize.ShloMosaic.Lib.StableHlo.Run

noncomputable section
open Idealize.ShloMosaic Idealize.ShloMosaic.TcCoe Idealize.SL.Sem Idealize.ShloMosaic.ValueIdx

namespace Cert.KernelIdeal.HostIn
open Cert.KernelIdeal Cert.KernelIdeal.Gen
variable (m : (ℓ : Loc nD τ sig) → Buf (Elt Ideal) ℓ) (ρ : Dev nD → PrngReg)

/-! # The host operations before the first region, read at an index

The weight `[2304,768]` is viewed `[12,3,64,768]` (head, part, feature, input), parts 0 and 1 are kept
(`[12,2,64,768]`), the result is viewed `[1536,768]` and transposed to `[768,1536]`: column
`col = h·128 + p·64 + d` of the result is row `h·192 + p·64 + d` of the weight.
The cosine (sine) table `[4096,32]` is cut to its first 2048 rows, each entry is repeated twice along a new last
axis (`[2048,32,2]`, viewed `[2048,64]`: feature `d` reads pair `d / 2`), and the `[2048,64]` table is repeated for
each of 24 heads (`[1,2048,1,64] → [1,2048,24,64]`, viewed `[2048,1536]`: column `col` reads feature `col % 64`). -/

/-- The transposed, packed weight at (input `k`, column `col`) is the weight at row
    `(col / 128)·192 + col % 128`, column `k`. -/
theorem weight_apply (c : Dev nD) (k : Fin 768) (col : Fin 1536) :
    (V1 m ρ c main_v4 : S768x1536.Idx → EReal) (ix2 k col)
      = (m ((c.tc : Thread nD τ).loc main_arg1) : S2304x768.Idx → EReal) (ix2 (⟨col.val / 128 * 192 + col.val % 128, by omega⟩ : Fin 2304) k) := by
  have hk : k.val < 768 := k.isLt
  have hc : col.val < 1536 := col.isLt
  -- the five operations as one term of the weight argument
  have e : (V1 m ρ c main_v4 : S768x1536.Idx → EReal)
      = truncf (F := Ideal) .bf16 (transpose S768x1536 [1, 0] (shapeCast S1536x768 (extractStridedSlice S12x2x64x768 ![0, 0, 0, 0]
          (shapeCast S12x3x64x768 (m ((c.tc : Thread nD τ).loc main_arg1) : S2304x768.Idx → EReal) shapeCasts_S2304x768_S12x3x64x768)
          slices_S12x3x64x768_S12x2x64x768_0_0_0_0) shapeCasts_S12x2x64x768_S1536x768) transposes_S1536x768_S768x1536_1_0)
          bitsLt_bf16_f32 := by
    dsimp only [V1, W1, hostOps0]; after_results; rfl
  refine (congrFun e _).trans ?_
  -- the conversion to bf16 is the identity on extended reals
  refine (truncf_apply (φ := .f32) (ψ := .bf16) _ bitsLt_bf16_f32 _).trans ?_
  -- the transpose [1,0]: [768,1536] at (k, col) reads [1536,768] at (col, k)
  refine (transpose_apply _ _ _ _ (ix2 col k) (fun b => match b with | ⟨0, _⟩ => rfl | ⟨1, _⟩ => rfl)).trans ?_
  -- the view [12,2,64,768] → [1536,768]: row col = h·128 + p·64 + d is (h, p, d) = (col / 128, col % 128 / 64, col % 64)
  refine (shapeCast_apply _ _ _
    (ix4 (⟨col.val / 128, by omega⟩ : Fin 12) (⟨col.val % 128 / 64, by omega⟩ : Fin 2) (⟨col.val % 64, by omega⟩ : Fin 64) k)
    (by rw [Shape.rowMajor_val_two, Shape.rowMajor_val_four]
        show ((col.val / 128 * 2 + col.val % 128 / 64) * 64 + col.val % 64) * 768 + k.val = col.val * 768 + k.val
        omega)).trans ?_
  -- the slice keeps parts 0 and 1 of 3, at offset 0 on every axis
  refine (extractStridedSlice_apply _ _ _ _
    (ix4 (⟨col.val / 128, by omega⟩ : Fin 12) (⟨col.val % 128 / 64, by omega⟩ : Fin 3) (⟨col.val % 64, by omega⟩ : Fin 64) k)
    (fun a => match a with
      | ⟨0, _⟩ => by show col.val / 128 = 0 + col.val / 128; omega
      | ⟨1, _⟩ => by show col.val % 128 / 64 = 0 + col.val % 128 / 64; omega
      | ⟨2, _⟩ => by show col.val % 64 = 0 + col.val % 64; omega
      | ⟨3, _⟩ => by show k.val = 0 + k.val; omega)).trans ?_
  -- the view [2304,768] → [12,3,64,768]: (h, p, d) is row h·192 + p·64 + d
  exact shapeCast_apply (s := S2304x768) (t := S12x3x64x768) _ _ _ _
    (by rw [Shape.rowMajor_val_two, Shape.rowMajor_val_four]
        show (col.val / 128 * 192 + col.val % 128) * 768 + k.val
          = ((col.val / 128 * 3 + col.val % 128 / 64) * 64 + col.val % 64) * 768 + k.val
        omega)

/-- A rotary table `T : [4096,32]` cut to 2048 rows, each entry doubled along the feature axis and the 64 features
    repeated for 24 heads, read at (position `s`, column `col`): `T (s, (col % 64) / 2)`. -/
theorem table_apply (T : S4096x32.Idx → EReal) (s : Fin 2048) (col : Fin 1536) :
    shapeCast S2048x1536 (broadcastInDim S1x2048x24x64 ![0, 1, 2, 3] bcast_S1x2048x1x64_S1x2048x24x64_0_1_2_3
        (shapeCast S1x2048x1x64 (shapeCast S2048x64 (broadcastInDim S2048x32x2 ![0, 1] bcast_S2048x32_S2048x32x2_0_1
          (extractStridedSlice S2048x32 ![0, 0] T slices_S4096x32_S2048x32_0_0)) shapeCasts_S2048x32x2_S2048x64)
          shapeCasts_S2048x64_S1x2048x1x64)) shapeCasts_S1x2048x24x64_S2048x1536 (ix2 s col)
      = T (ix2 (⟨s.val, by omega⟩ : Fin 4096) (⟨col.val % 64 / 2, by omega⟩ : Fin 32)) := by
  have hs : s.val < 2048 := s.isLt
  have hc : col.val < 1536 := col.isLt
  -- the view [1,2048,24,64] → [2048,1536]: column col = head·64 + d is (head, d) = (col / 64, col % 64)
  refine (shapeCast_apply _ _ _
    (ix4 (⟨0, by omega⟩ : Fin 1) s (⟨col.val / 64, by omega⟩ : Fin 24) (⟨col.val % 64, by omega⟩ : Fin 64))
    (by rw [Shape.rowMajor_val_four, Shape.rowMajor_val_two]
        show ((0 * 2048 + s.val) * 24 + col.val / 64) * 64 + col.val % 64 = s.val * 1536 + col.val
        omega)).trans ?_
  -- the repetition over the 24 heads: the head axis of the operand has extent 1
  refine (broadcastInDim_apply _ _ _ _
    (ix4 (⟨0, by omega⟩ : Fin 1) s (⟨0, by omega⟩ : Fin 1) (⟨col.val % 64, by omega⟩ : Fin 64))
    (fun a => match a with | ⟨0, _⟩ => rfl | ⟨1, _⟩ => rfl | ⟨2, _⟩ => rfl | ⟨3, _⟩ => rfl)).trans ?_
  -- the view [2048,64] → [1,2048,1,64] adds two unit axes
  refine (shapeCast_apply _ _ _ (ix2 s (⟨col.val % 64, by omega⟩ : Fin 64))
    (by rw [Shape.rowMajor_val_two, Shape.rowMajor_val_four]
        show s.val * 64 + col.val % 64 = ((0 * 2048 + s.val) * 1 + 0) * 64 + col.val % 64
        omega)).trans ?_
  -- the view [2048,32,2] → [2048,64]: feature d is (pair, copy) = (d / 2, d % 2)
  refine (shapeCast_apply _ _ _
    (ix3 s (⟨col.val % 64 / 2, by omega⟩ : Fin 32) (⟨col.val % 64 % 2, by omega⟩ : Fin 2))
    (by rw [Shape.rowMajor_val_three, Shape.rowMajor_val_two]
        show (s.val * 32 + col.val % 64 / 2) * 2 + col.val % 64 % 2 = s.val * 64 + col.val % 64
        omega)).trans ?_
  -- the doubling: both copies read the same pair
  refine (broadcastInDim_apply _ _ _ _ (ix2 s (⟨col.val % 64 / 2, by omega⟩ : Fin 32))
    (fun a => match a with | ⟨0, _⟩ => rfl | ⟨1, _⟩ => rfl)).trans ?_
  -- the first 2048 rows of the table, at offset 0
  exact extractStridedSlice_apply _ _ _ _ _
    (fun a => match a with
      | ⟨0, _⟩ => by show s.val = 0 + s.val; omega
      | ⟨1, _⟩ => by show col.val % 64 / 2 = 0 + col.val % 64 / 2; omega)

/-- The tiled cosine table at (position `s`, column `col`) is the cosine argument at `(s, (col % 64) / 2)`. -/
theorem cos_apply (c : Dev nD) (s : Fin 2048) (col : Fin 1536) :
    (V1 m ρ c main_v13 : S2048x1536.Idx → EReal) (ix2 s col)
      = (m ((c.tc : Thread nD τ).loc main_arg2) : S4096x32.Idx → EReal) (ix2 (⟨s.val, by omega⟩ : Fin 4096) (⟨col.val % 64 / 2, by omega⟩ : Fin 32)) := by
  have e : (V1 m ρ c main_v13 : S2048x1536.Idx → EReal)
      = shapeCast S2048x1536 (broadcastInDim S1x2048x24x64 ![0, 1, 2, 3] bcast_S1x2048x1x64_S1x2048x24x64_0_1_2_3
          (shapeCast S1x2048x1x64 (shapeCast S2048x64 (broadcastInDim S2048x32x2 ![0, 1] bcast_S2048x32_S2048x32x2_0_1
            (extractStridedSlice S2048x32 ![0, 0] (m ((c.tc : Thread nD τ).loc main_arg2) : S4096x32.Idx → EReal)
              slices_S4096x32_S2048x32_0_0)) shapeCasts_S2048x32x2_S2048x64)
            shapeCasts_S2048x64_S1x2048x1x64)) shapeCasts_S1x2048x24x64_S2048x1536 := by
    dsimp only [V1, W1, hostOps0]; after_results; rfl
  exact (congrFun e _).trans (table_apply _ s col)

/-- The tiled sine table at (position `s`, column `col`) is the sine argument at `(s, (col % 64) / 2)`. -/
theorem sin_apply (c : Dev nD) (s : Fin 2048) (col : Fin 1536) :
    (V1 m ρ c main_v16 : S2048x1536.Idx → EReal) (ix2 s col)
      = (m ((c.tc : Thread nD τ).loc main_arg3) : S4096x32.Idx → EReal) (ix2 (⟨s.val, by omega⟩ : Fin 4096) (⟨col.val % 64 / 2, by omega⟩ : Fin 32)) := by
  have e : (V1 m ρ c main_v16 : S2048x1536.Idx → EReal)
      = shapeCast S2048x1536 (broadcastInDim S1x2048x24x64 ![0, 1, 2, 3] bcast_S1x2048x1x64_S1x2048x24x64_0_1_2_3
          (shapeCast S1x2048x1x64 (shapeCast S2048x64 (broadcastInDim S2048x32x2 ![0, 1] bcast_S2048x32_S2048x32x2_0_1
            (extractStridedSlice S2048x32 ![0, 0] (m ((c.tc : Thread nD τ).loc main_arg3) : S4096x32.Idx → EReal)
              slices_S4096x32_S2048x32_0_0)) shapeCasts_S2048x32x2_S2048x64)
            shapeCasts_S2048x64_S1x2048x1x64)) shapeCasts_S1x2048x24x64_S2048x1536 := by
    dsimp only [V1, W1, hostOps0]; after_results; rfl
  exact (congrFun e _).trans (table_apply _ s col)

/-- No host operation writes the activation argument: at the first region's entry it holds what it was launched with. -/
theorem act_eq (c : Dev nD) : V1 m ρ c main_arg0 = m ((c.tc : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))).trans rfl

end Cert.KernelIdeal.HostIn
end
-- ==== Proof.Bridge.lean ====
/-
  The algebra that joins the first region's two result arrays to the specification.

  In `headsA e` at entry (bh, s, d) the column is col = h·128 + e + d with head h = bh mod 12, part offset e = p·64
  (p = 0 the queries, p = 1 the keys) and batch b = bh / 12.
  * The transposed weight's column col is row col / 128 · 192 + col mod 128 = h·192 + p·64 + d of the fused weight, so
    the projection onto column col is `mix` at that row (`mixA_mix`).
  * col mod 64 = d, so the tiled tables at column col are the tables at the pair that holds feature d.
  * col and d have the same parity. At an even d the pair is (col, col + 1) = (row0, row1) and the region's
    m0·c + (0 − m1)·sn is m0·c − m1·sn; at an odd d the pair is (col − 1, col) = (row0, row1) and the region's
    m1·c + m0·sn is m0·sn + m1·c by commutativity. No finiteness is used.
  * `out_eq`: the batched product of the two result arrays is the specification's score array, entry by entry.
-/
import proofs.«120772_j11879879542592_2_alg».proof.Proof.RopeFn
import proofs.«120772_j11879879542592_2_alg».proof.Proof.Spec

noncomputable section

namespace Cert.KernelIdeal.Rope

open Cert.KernelIdeal Cert.RopeSpec Idealize.ShloMosaic Idealize.ShloMosaic.ValueIdx

variable (X : S2048x2x768.Idx → EReal) (W : S2304x768.Idx → EReal) (C Sn : S4096x32.Idx → EReal)
  (Wt : S768x1536.Idx → EReal) (Cb Sb : S2048x1536.Idx → EReal)

/-- The projection onto column c of the transposed weight is the projection onto row c / 128 · 192 + c mod 128 of the
    fused weight. -/
theorem mixA_mix
    (hW : ∀ (k : Fin 768) (col : Fin 1536), Wt (ix2 k col) = W (ix2 (⟨col.val / 128 * 192 + col.val % 128, by omega⟩ : Fin 2304) k))
    (s : Fin 2048) (b : Fin 2) (c : Fin 1536) (o : Fin 2304) (ho : o.val = c.val / 128 * 192 + c.val % 128) :
    mixA X Wt s b c = mix X W s b o := by
  unfold mixA mix
  refine Finset.sum_congr rfl fun k _ => ?_
  rw [hW k c]
  exact congrArg (fun z : Fin 2304 => X (ix3 s b k) * W (ix2 z k)) (Fin.ext ho.symm)

/-- The region's rotated projection at column h·128 + p·64 + d is the specification's rotation of part p, head h,
    feature d. -/
theorem rope_rot
    (hW : ∀ (k : Fin 768) (col : Fin 1536), Wt (ix2 k col) = W (ix2 (⟨col.val / 128 * 192 + col.val % 128, by omega⟩ : Fin 2304) k))
    (hC : ∀ (s : Fin 2048) (col : Fin 1536), Cb (ix2 s col) = C (ix2 (⟨s.val, by omega⟩ : Fin 4096) (⟨col.val % 64 / 2, by omega⟩ : Fin 32)))
    (hS : ∀ (s : Fin 2048) (col : Fin 1536), Sb (ix2 s col) = Sn (ix2 (⟨s.val, by omega⟩ : Fin 4096) (⟨col.val % 64 / 2, by omega⟩ : Fin 32)))
    (p : Fin 2) (s : Fin 2048) (b : Fin 2) (h : Fin 12) (d : Fin 64) (c : Fin 1536)
    (hc : c.val = h.val * 128 + p.val * 64 + d.val) :
    ropeA X Wt Cb Sb s b c = rot X W C Sn p s b h d := by
  have hp : p.val < 2 := p.isLt
  have hh : h.val < 12 := h.isLt
  have hd : d.val < 64 := d.isLt
  have eC : Cb (ix2 s c) = C (tix s d) :=
    (hC s c).trans (congrArg (fun z : Fin 32 => C (ix2 (⟨s.val, by omega⟩ : Fin 4096) z)) (Fin.ext (by show c.val % 64 / 2 = d.val / 2; omega)))
  have eS : Sb (ix2 s c) = Sn (tix s d) :=
    (hS s c).trans (congrArg (fun z : Fin 32 => Sn (ix2 (⟨s.val, by omega⟩ : Fin 4096) z)) (Fin.ext (by show c.val % 64 / 2 = d.val / 2; omega)))
  unfold ropeA
  by_cases hd2 : d.val % 2 = 0
  · have hc2 : c.val % 2 = 0 := by omega
    have e0 : mixA X Wt s b c = mix X W s b (row0 p h d) :=
      mixA_mix X W Wt hW s b c _ (by show h.val * 192 + p.val * 64 + 2 * (d.val / 2) = c.val / 128 * 192 + c.val % 128; omega)
    have e1 : mixA X Wt s b (nxt c) = mix X W s b (row1 p h d) :=
      mixA_mix X W Wt hW s b (nxt c) _ (by
        show h.val * 192 + p.val * 64 + 2 * (d.val / 2) + 1 = (c.val + 1) % 1536 / 128 * 192 + (c.val + 1) % 1536 % 128
        omega)
    rw [if_pos hc2, rot_even X W C Sn p s b h d hd2, e0, e1, eC, eS]
    exact add_zero_sub_mul _ _ _ _
  · have hc2 : ¬ c.val % 2 = 0 := by omega
    have e1 : mixA X Wt s b c = mix X W s b (row1 p h d) :=
      mixA_mix X W Wt hW s b c _ (by show h.val * 192 + p.val * 64 + 2 * (d.val / 2) + 1 = c.val / 128 * 192 + c.val % 128; omega)
    have e0 : mixA X Wt s b (prv c) = mix X W s b (row0 p h d) :=
      mixA_mix X W Wt hW s b (prv c) _ (by
        show h.val * 192 + p.val * 64 + 2 * (d.val / 2) = (c.val + 1535) % 1536 / 128 * 192 + (c.val + 1535) % 1536 % 128
        omega)
    rw [if_neg hc2, rot_odd X W C Sn p s b h d hd2, e0, e1, eC, eS]
    exact add_comm _ _

/-- Entry (bh, s, d) of the region's queries' array is the specification's rotated query. -/
theorem heads_rot_q
    (hW : ∀ (k : Fin 768) (col : Fin 1536), Wt (ix2 k col) = W (ix2 (⟨col.val / 128 * 192 + col.val % 128, by omega⟩ : Fin 2304) k))
    (hC : ∀ (s : Fin 2048) (col : Fin 1536), Cb (ix2 s col) = C (ix2 (⟨s.val, by omega⟩ : Fin 4096) (⟨col.val % 64 / 2, by omega⟩ : Fin 32)))
    (hS : ∀ (s : Fin 2048) (col : Fin 1536), Sb (ix2 s col) = Sn (ix2 (⟨s.val, by omega⟩ : Fin 4096) (⟨col.val % 64 / 2, by omega⟩ : Fin 32)))
    (bh : Fin 24) (s : Fin 2048) (d : Fin 64) :
    headsA 0 (by omega) X Wt Cb Sb (ix3 bh s d) = rot X W C Sn 0 s ⟨bh.val / 12, by omega⟩ ⟨bh.val % 12, by omega⟩ d := by
  unfold headsA
  refine rope_rot X W C Sn Wt Cb Sb hW hC hS 0 s _ ⟨bh.val % 12, by omega⟩ d _ ?_
  show bh.val % 12 * 128 + 0 + d.val = bh.val % 12 * 128 + 0 * 64 + d.val
  omega

/-- Entry (bh, s, d) of the region's keys' array is the specification's rotated key. -/
theorem heads_rot_k
    (hW : ∀ (k : Fin 768) (col : Fin 1536), Wt (ix2 k col) = W (ix2 (⟨col.val / 128 * 192 + col.val % 128, by omega⟩ : Fin 2304) k))
    (hC : ∀ (s : Fin 2048) (col : Fin 1536), Cb (ix2 s col) = C (ix2 (⟨s.val, by omega⟩ : Fin 4096) (⟨col.val % 64 / 2, by omega⟩ : Fin 32)))
    (hS : ∀ (s : Fin 2048) (col : Fin 1536), Sb (ix2 s col) = Sn (ix2 (⟨s.val, by omega⟩ : Fin 4096) (⟨col.val % 64 / 2, by omega⟩ : Fin 32)))
    (bh : Fin 24) (s : Fin 2048) (d : Fin 64) :
    headsA 64 (by omega) X Wt Cb Sb (ix3 bh s d) = rot X W C Sn 1 s ⟨bh.val / 12, by omega⟩ ⟨bh.val % 12, by omega⟩ d := by
  unfold headsA
  refine rope_rot X W C Sn Wt Cb Sb hW hC hS 1 s _ ⟨bh.val % 12, by omega⟩ d _ ?_
  show bh.val % 12 * 128 + 64 + d.val = bh.val % 12 * 128 + 1 * 64 + d.val
  omega

/-- The batched product of the region's two result arrays is the specification's score array. -/
theorem out_eq
    (hW : ∀ (k : Fin 768) (col : Fin 1536), Wt (ix2 k col) = W (ix2 (⟨col.val / 128 * 192 + col.val % 128, by omega⟩ : Fin 2304) k))
    (hC : ∀ (s : Fin 2048) (col : Fin 1536), Cb (ix2 s col) = C (ix2 (⟨s.val, by omega⟩ : Fin 4096) (⟨col.val % 64 / 2, by omega⟩ : Fin 32)))
    (hS : ∀ (s : Fin 2048) (col : Fin 1536), Sb (ix2 s col) = Sn (ix2 (⟨s.val, by omega⟩ : Fin 4096) (⟨col.val % 64 / 2, by omega⟩ : Fin 32))) :
    qk (headsA 0 (by omega) X Wt Cb Sb) (headsA 64 (by omega) X Wt Cb Sb) = out X W C Sn := by
  funext i
  unfold qk out outAt
  refine Finset.sum_congr rfl fun d _ => ?_
  rw [heads_rot_q X W C Sn Wt Cb Sb hW hC hS, heads_rot_k X W C Sn Wt Cb Sb hW hC hS]

end Cert.KernelIdeal.Rope

end
-- ==== Proof.KValue.lean ====
/-
  The idealized kernel's result array, as a function of the four arguments.

  The second region leaves in the result array the batched products of the two arrays it finds; those are what the first
  region's write-backs left, the rotated projections of the four arrays IT found; and those four are the activations as
  launched and the host's rearrangements of the weight and of the two tables. Composing the three readings, and reading the
  rearrangements back at an index, the result is the specification's score array of the launch arguments.
-/
import proofs.«120772_j11879879542592_2_alg».proof.Proof.Scores
import proofs.«120772_j11879879542592_2_alg».proof.Proof.RopeArr
import proofs.«120772_j11879879542592_2_alg».proof.Proof.HostIn
import proofs.«120772_j11879879542592_2_alg».proof.Proof.Bridge

noncomputable section

namespace Cert.KernelIdeal.KValue

open Cert.KernelIdeal Cert.KernelIdeal.Gen Cert.KernelIdeal.Rope
open Idealize.ShloMosaic Idealize.ShloMosaic.TcCoe Idealize.SL.Sem

variable (m : (ℓ : Loc nD τ sig) → Buf (Elt Ideal) ℓ) (ρ : Dev nD → PrngReg)

/-- The queries' array as the second region finds it. -/
theorem queries_eq (c : Dev nD) :
    V2 m ρ c main_v17_0 = headsA 0 (by omega) (V1 m ρ c main_arg0) (V1 m ρ c main_v4) (V1 m ρ c main_v13) (V1 m ρ c main_v16) :=
  (W2_arr m ρ c 4).trans (rope_q (V1 m ρ) c)

/-- The keys' array as the second region finds it. -/
theorem keys_eq (c : Dev nD) :
    V2 m ρ c main_v17_1 = headsA 64 (by omega) (V1 m ρ c main_arg0) (V1 m ρ c main_v4) (V1 m ρ c main_v13) (V1 m ρ c main_v16) :=
  (W2_arr m ρ c 5).trans (rope_k (V1 m ρ) c)

/-- The result array after the run is the specification's scores of the launch arguments. -/
theorem result_eq (c : Dev nD) :
    (dat1 (F := Ideal) (V2 m ρ) c).arrAt 2 cfg1.N
      = Cert.RopeSpec.out (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Scores.scores (V2 m ρ) c, queries_eq, keys_eq, Cert.KernelIdeal.HostIn.act_eq]
  exact out_eq _ _ _ _ _ _ _ (Cert.KernelIdeal.HostIn.weight_apply m ρ c) (Cert.KernelIdeal.HostIn.cos_apply m ρ c)
    (Cert.KernelIdeal.HostIn.sin_apply m ρ c)

end Cert.KernelIdeal.KValue

end
-- ==== Proof.RefValue.lean ====
/-
  The reference program's result is the specification's score array.

  The program computes the projection mix(s, b, o) = Σ_k X(s, b, k) · W(o, k) once, views the 2304 weight rows as 12 heads
  of 192 (row h·192 + c), and cuts from each head the query columns [0, 64) and the key columns 64 + [0, 64). Each 64-feature
  part is viewed as 32 pairs (feature 2j + e is pair j, slot e); with m0, m1 the two slots of pair j and c, sn the cosine and
  sine table entries at (position s, pair j), slot 0 becomes m0·c − m1·sn and slot 1 becomes m0·sn + m1·c; the two slots are
  joined again along a last axis of extent 2 and that axis is merged back (feature d is pair d / 2, slot d % 2). Both parts
  are reordered to [b·12 + h, s, d], and the result is Σ_d q(bh, s, d) · k(bh, t, d).

  The proof reads every stage at an index built from its coordinates and carries the closed form forward: `vN_at` says what
  stage %N holds at (s, b, h, ·). The index maps of the reshapes are row-major positions, so each is an equality of
  quotients and remainders of one linear expression in the coordinates, decided by linear arithmetic. The two joins read
  their first operand at slot 0 and their second at slot 1. No law used needs finiteness: both sides are the same sums,
  products and differences of extended reals.
-/
import proofs.«120772_j11879879542592_2_alg».proof.Proof.Gen.ReferenceIdeal.Read
import proofs.«120772_j11879879542592_2_alg».proof.Proof.Spec
import Idealize.ShloMosaic.Lib.Pipeline.Value
import Idealize.ShloMosaic.Lib.ValueIdx

noncomputable section
open Idealize.ShloMosaic Idealize.ShloMosaic.TcCoe Idealize.SL.Sem Idealize.ShloMosaic.ValueIdx

namespace Cert.ReferenceIdeal.RefValue
open Cert.ReferenceIdeal Cert.ReferenceIdeal.Gen

variable (x0 : (⟨S2048x2x768, .f32⟩ : BufTy).Contents (Elt Ideal)) (x1 : (⟨S2304x768, .f32⟩ : BufTy).Contents (Elt Ideal))
  (x2 x3 : (⟨S4096x32, .f32⟩ : BufTy).Contents (Elt Ideal))

/-- The projection read at (position s, batch b, weight row o): the sum over the 768 input features. -/
theorem v0_at (s : Fin 2048) (b : Fin 2) (o : Fin 2304) :
    Read.val_main_v0 (F := Ideal) x0 x1 (ix3 s b o) = RopeSpec.mix x0 x1 s b o := by
  refine (Read.val_main_v0_apply x0 x1 _).trans ?_
  unfold RopeSpec.mix
  refine Finset.sum_congr rfl fun k _ => ?_
  have el : Read.lidx_main_v0 (ix3 s b o) k = ix3 s b k := by
    funext a; match a with
    | ⟨0, _⟩ => rfl
    | ⟨1, _⟩ => rfl
    | ⟨2, _⟩ => rfl
  have er : Read.ridx_main_v0 (ix3 s b o) k = ix2 o k := by
    funext a; match a with
    | ⟨0, _⟩ => rfl
    | ⟨1, _⟩ => rfl
  rw [el, er]

/-- Splitting the 2304 weight rows as 12 heads of 192: (h, c) is row h·192 + c. -/
theorem v1_at (s : Fin 2048) (b : Fin 2) (h : Fin 12) (c : Fin 192) :
    Read.val_main_v1 (F := Ideal) x0 x1 (ix4 s b h c)
      = RopeSpec.mix x0 x1 s b (⟨h.val * 192 + c.val, by omega⟩ : Fin 2304) := by
  refine (Read.val_main_v1_apply (F := Ideal) x0 x1 _).trans ?_
  have e : Read.idx_main_v1 (ix4 s b h c) = ix3 s b (⟨h.val * 192 + c.val, by omega⟩ : Fin 2304) := by
    have hs := s.isLt; have hb := b.isLt; have hh := h.isLt; have hc := c.isLt
    funext a; match a with
    | ⟨0, _⟩ => exact Fin.ext (by show (((s.val * 2 + b.val) * 12 + h.val) * 192 + c.val) / 4608 = s.val; omega)
    | ⟨1, _⟩ => exact Fin.ext (by show (((s.val * 2 + b.val) * 12 + h.val) * 192 + c.val) / 2304 % 2 = b.val; omega)
    | ⟨2, _⟩ => exact Fin.ext (by show (((s.val * 2 + b.val) * 12 + h.val) * 192 + c.val) % 2304 = h.val * 192 + c.val; omega)
  rw [e]; exact v0_at x0 x1 s b _

/-- The query part of head h: columns h·192 + [0, 64). -/
theorem v2_at (s : Fin 2048) (b : Fin 2) (h : Fin 12) (d : Fin 64) :
    Read.val_main_v2 (F := Ideal) x0 x1 (ix4 s b h d)
      = RopeSpec.mix x0 x1 s b (⟨h.val * 192 + d.val, by omega⟩ : Fin 2304) := by
  refine (Read.val_main_v2_apply (F := Ideal) x0 x1 _).trans ?_
  have e : Read.idx_main_v2 (ix4 s b h d) = ix4 s b h (⟨d.val, by omega⟩ : Fin 192) := by
    funext a; match a with
    | ⟨0, _⟩ => rfl
    | ⟨1, _⟩ => rfl
    | ⟨2, _⟩ => rfl
    | ⟨3, _⟩ => rfl
  rw [e]; exact v1_at x0 x1 s b h _

/-- The key part of head h: columns h·192 + 64 + [0, 64). -/
theorem v3_at (s : Fin 2048) (b : Fin 2) (h : Fin 12) (d : Fin 64) :
    Read.val_main_v3 (F := Ideal) x0 x1 (ix4 s b h d)
      = RopeSpec.mix x0 x1 s b (⟨h.val * 192 + (64 + d.val), by omega⟩ : Fin 2304) := by
  refine (Read.val_main_v3_apply (F := Ideal) x0 x1 _).trans ?_
  have e : Read.idx_main_v3 (ix4 s b h d) = ix4 s b h (⟨64 + d.val, by omega⟩ : Fin 192) := by
    funext a; match a with
    | ⟨0, _⟩ => rfl
    | ⟨1, _⟩ => rfl
    | ⟨2, _⟩ => rfl
    | ⟨3, _⟩ => rfl
  rw [e]; exact v1_at x0 x1 s b h _

/-- Feature 2j + e of the query part, seen as (pair j, slot e). -/
theorem v5_at (s : Fin 2048) (b : Fin 2) (h : Fin 12) (j : Fin 32) (e : Fin 2) :
    Read.val_main_v5 (F := Ideal) x0 x1 (ix5 s b h j e)
      = RopeSpec.mix x0 x1 s b (⟨h.val * 192 + ((2 * j.val + e.val)), by omega⟩ : Fin 2304) := by
  refine (Read.val_main_v5_apply (F := Ideal) x0 x1 _).trans ?_
  have e' : Read.idx_main_v5 (ix5 s b h j e) = ix4 s b h (⟨2 * j.val + e.val, by omega⟩ : Fin 64) := by
    have hs := s.isLt; have hb := b.isLt; have hh := h.isLt; have hj := j.isLt; have he := e.isLt
    funext a; match a with
    | ⟨0, _⟩ => exact Fin.ext (by show ((((s.val * 2 + b.val) * 12 + h.val) * 32 + j.val) * 2 + e.val) / 1536 = s.val; omega)
    | ⟨1, _⟩ => exact Fin.ext (by show ((((s.val * 2 + b.val) * 12 + h.val) * 32 + j.val) * 2 + e.val) / 768 % 2 = b.val; omega)
    | ⟨2, _⟩ => exact Fin.ext (by show ((((s.val * 2 + b.val) * 12 + h.val) * 32 + j.val) * 2 + e.val) / 64 % 12 = h.val; omega)
    | ⟨3, _⟩ => exact Fin.ext (by show ((((s.val * 2 + b.val) * 12 + h.val) * 32 + j.val) * 2 + e.val) % 64 = 2 * j.val + e.val; omega)
  rw [e']; exact v2_at x0 x1 s b h _

/-- Slot 0 of pair j: the even feature 2j. -/
theorem v7_at (s : Fin 2048) (b : Fin 2) (h : Fin 12) (j : Fin 32) :
    Read.val_main_v7 (F := Ideal) x0 x1 (ix4 s b h j)
      = RopeSpec.mix x0 x1 s b (⟨h.val * 192 + ((2 * j.val + 0)), by omega⟩ : Fin 2304) := by
  refine (Read.val_main_v7_apply (F := Ideal) x0 x1 _).trans ?_
  have e7 : Read.idx_main_v7 (ix4 s b h j) = ix5 s b h j (⟨0, Nat.one_pos⟩ : Fin 1) := by
    have hs := s.isLt; have hb := b.isLt; have hh := h.isLt; have hj := j.isLt
    funext a; match a with
    | ⟨0, _⟩ => exact Fin.ext (by show (((s.val * 2 + b.val) * 12 + h.val) * 32 + j.val) / 768 = s.val; omega)
    | ⟨1, _⟩ => exact Fin.ext (by show (((s.val * 2 + b.val) * 12 + h.val) * 32 + j.val) / 384 % 2 = b.val; omega)
    | ⟨2, _⟩ => exact Fin.ext (by show (((s.val * 2 + b.val) * 12 + h.val) * 32 + j.val) / 32 % 12 = h.val; omega)
    | ⟨3, _⟩ => exact Fin.ext (by show (((s.val * 2 + b.val) * 12 + h.val) * 32 + j.val) / 1 % 32 = j.val; omega)
    | ⟨4, _⟩ => rfl
  rw [e7]
  refine (Read.val_main_v6_apply (F := Ideal) x0 x1 _).trans ?_
  have e6 : Read.idx_main_v6 (ix5 s b h j (⟨0, Nat.one_pos⟩ : Fin 1)) = ix5 s b h j (⟨0, by omega⟩ : Fin 2) := by
    funext a; match a with
    | ⟨0, _⟩ => rfl
    | ⟨1, _⟩ => rfl
    | ⟨2, _⟩ => rfl
    | ⟨3, _⟩ => rfl
    | ⟨4, _⟩ => rfl
  rw [e6]; exact v5_at x0 x1 s b h j _

/-- Slot 1 of pair j: the odd feature 2j + 1. -/
theorem v9_at (s : Fin 2048) (b : Fin 2) (h : Fin 12) (j : Fin 32) :
    Read.val_main_v9 (F := Ideal) x0 x1 (ix4 s b h j)
      = RopeSpec.mix x0 x1 s b (⟨h.val * 192 + ((2 * j.val + 1)), by omega⟩ : Fin 2304) := by
  refine (Read.val_main_v9_apply (F := Ideal) x0 x1 _).trans ?_
  have e9 : Read.idx_main_v9 (ix4 s b h j) = ix5 s b h j (⟨0, Nat.one_pos⟩ : Fin 1) := by
    have hs := s.isLt; have hb := b.isLt; have hh := h.isLt; have hj := j.isLt
    funext a; match a with
    | ⟨0, _⟩ => exact Fin.ext (by show (((s.val * 2 + b.val) * 12 + h.val) * 32 + j.val) / 768 = s.val; omega)
    | ⟨1, _⟩ => exact Fin.ext (by show (((s.val * 2 + b.val) * 12 + h.val) * 32 + j.val) / 384 % 2 = b.val; omega)
    | ⟨2, _⟩ => exact Fin.ext (by show (((s.val * 2 + b.val) * 12 + h.val) * 32 + j.val) / 32 % 12 = h.val; omega)
    | ⟨3, _⟩ => exact Fin.ext (by show (((s.val * 2 + b.val) * 12 + h.val) * 32 + j.val) / 1 % 32 = j.val; omega)
    | ⟨4, _⟩ => rfl
  rw [e9]
  refine (Read.val_main_v8_apply (F := Ideal) x0 x1 _).trans ?_
  have e8 : Read.idx_main_v8 (ix5 s b h j (⟨0, Nat.one_pos⟩ : Fin 1)) = ix5 s b h j (⟨1, by omega⟩ : Fin 2) := by
    funext a; match a with
    | ⟨0, _⟩ => rfl
    | ⟨1, _⟩ => rfl
    | ⟨2, _⟩ => rfl
    | ⟨3, _⟩ => rfl
    | ⟨4, _⟩ => rfl
  rw [e8]; exact v5_at x0 x1 s b h j _

/-- Feature 2j + e of the key part, seen as (pair j, slot e). -/
theorem v28_at (s : Fin 2048) (b : Fin 2) (h : Fin 12) (j : Fin 32) (e : Fin 2) :
    Read.val_main_v28 (F := Ideal) x0 x1 (ix5 s b h j e)
      = RopeSpec.mix x0 x1 s b (⟨h.val * 192 + (64 + (2 * j.val + e.val)), by omega⟩ : Fin 2304) := by
  refine (Read.val_main_v28_apply (F := Ideal) x0 x1 _).trans ?_
  have e' : Read.idx_main_v28 (ix5 s b h j e) = ix4 s b h (⟨2 * j.val + e.val, by omega⟩ : Fin 64) := by
    have hs := s.isLt; have hb := b.isLt; have hh := h.isLt; have hj := j.isLt; have he := e.isLt
    funext a; match a with
    | ⟨0, _⟩ => exact Fin.ext (by show ((((s.val * 2 + b.val) * 12 + h.val) * 32 + j.val) * 2 + e.val) / 1536 = s.val; omega)
    | ⟨1, _⟩ => exact Fin.ext (by show ((((s.val * 2 + b.val) * 12 + h.val) * 32 + j.val) * 2 + e.val) / 768 % 2 = b.val; omega)
    | ⟨2, _⟩ => exact Fin.ext (by show ((((s.val * 2 + b.val) * 12 + h.val) * 32 + j.val) * 2 + e.val) / 64 % 12 = h.val; omega)
    | ⟨3, _⟩ => exact Fin.ext (by show ((((s.val * 2 + b.val) * 12 + h.val) * 32 + j.val) * 2 + e.val) % 64 = 2 * j.val + e.val; omega)
  rw [e']; exact v3_at x0 x1 s b h _

/-- Slot 0 of pair j: the even feature 2j. -/
theorem v30_at (s : Fin 2048) (b : Fin 2) (h : Fin 12) (j : Fin 32) :
    Read.val_main_v30 (F := Ideal) x0 x1 (ix4 s b h j)
      = RopeSpec.mix x0 x1 s b (⟨h.val * 192 + (64 + (2 * j.val + 0)), by omega⟩ : Fin 2304) := by
  refine (Read.val_main_v30_apply (F := Ideal) x0 x1 _).trans ?_
  have e7 : Read.idx_main_v30 (ix4 s b h j) = ix5 s b h j (⟨0, Nat.one_pos⟩ : Fin 1) := by
    have hs := s.isLt; have hb := b.isLt; have hh := h.isLt; have hj := j.isLt
    funext a; match a with
    | ⟨0, _⟩ => exact Fin.ext (by show (((s.val * 2 + b.val) * 12 + h.val) * 32 + j.val) / 768 = s.val; omega)
    | ⟨1, _⟩ => exact Fin.ext (by show (((s.val * 2 + b.val) * 12 + h.val) * 32 + j.val) / 384 % 2 = b.val; omega)
    | ⟨2, _⟩ => exact Fin.ext (by show (((s.val * 2 + b.val) * 12 + h.val) * 32 + j.val) / 32 % 12 = h.val; omega)
    | ⟨3, _⟩ => exact Fin.ext (by show (((s.val * 2 + b.val) * 12 + h.val) * 32 + j.val) / 1 % 32 = j.val; omega)
    | ⟨4, _⟩ => rfl
  rw [e7]
  refine (Read.val_main_v29_apply (F := Ideal) x0 x1 _).trans ?_
  have e6 : Read.idx_main_v29 (ix5 s b h j (⟨0, Nat.one_pos⟩ : Fin 1)) = ix5 s b h j (⟨0, by omega⟩ : Fin 2) := by
    funext a; match a with
    | ⟨0, _⟩ => rfl
    | ⟨1, _⟩ => rfl
    | ⟨2, _⟩ => rfl
    | ⟨3, _⟩ => rfl
    | ⟨4, _⟩ => rfl
  rw [e6]; exact v28_at x0 x1 s b h j _

/-- Slot 1 of pair j: the odd feature 2j + 1. -/
theorem v32_at (s : Fin 2048) (b : Fin 2) (h : Fin 12) (j : Fin 32) :
    Read.val_main_v32 (F := Ideal) x0 x1 (ix4 s b h j)
      = RopeSpec.mix x0 x1 s b (⟨h.val * 192 + (64 + (2 * j.val + 1)), by omega⟩ : Fin 2304) := by
  refine (Read.val_main_v32_apply (F := Ideal) x0 x1 _).trans ?_
  have e9 : Read.idx_main_v32 (ix4 s b h j) = ix5 s b h j (⟨0, Nat.one_pos⟩ : Fin 1) := by
    have hs := s.isLt; have hb := b.isLt; have hh := h.isLt; have hj := j.isLt
    funext a; match a with
    | ⟨0, _⟩ => exact Fin.ext (by show (((s.val * 2 + b.val) * 12 + h.val) * 32 + j.val) / 768 = s.val; omega)
    | ⟨1, _⟩ => exact Fin.ext (by show (((s.val * 2 + b.val) * 12 + h.val) * 32 + j.val) / 384 % 2 = b.val; omega)
    | ⟨2, _⟩ => exact Fin.ext (by show (((s.val * 2 + b.val) * 12 + h.val) * 32 + j.val) / 32 % 12 = h.val; omega)
    | ⟨3, _⟩ => exact Fin.ext (by show (((s.val * 2 + b.val) * 12 + h.val) * 32 + j.val) / 1 % 32 = j.val; omega)
    | ⟨4, _⟩ => rfl
  rw [e9]
  refine (Read.val_main_v31_apply (F := Ideal) x0 x1 _).trans ?_
  have e8 : Read.idx_main_v31 (ix5 s b h j (⟨0, Nat.one_pos⟩ : Fin 1)) = ix5 s b h j (⟨1, by omega⟩ : Fin 2) := by
    funext a; match a with
    | ⟨0, _⟩ => rfl
    | ⟨1, _⟩ => rfl
    | ⟨2, _⟩ => rfl
    | ⟨3, _⟩ => rfl
    | ⟨4, _⟩ => rfl
  rw [e8]; exact v28_at x0 x1 s b h j _

/-- The cosine table's first 2048 rows, spread over batch and head: entry (s, ·, ·, j) is the table at (s, j). -/
theorem v11_at (s : Fin 2048) (j : Fin 32) :
    Read.val_main_v11 (F := Ideal) x2 (ix4 s (⟨0, Nat.one_pos⟩ : Fin 1) (⟨0, Nat.one_pos⟩ : Fin 1) j)
      = x2 (ix2 (⟨s.val, by omega⟩ : Fin 4096) j) := by
  refine (Read.val_main_v11_apply (F := Ideal) x2 _).trans ?_
  have eb : Read.idx_main_v11 (ix4 s (⟨0, Nat.one_pos⟩ : Fin 1) (⟨0, Nat.one_pos⟩ : Fin 1) j) = ix2 s j := by
    funext a; match a with
    | ⟨0, _⟩ => rfl
    | ⟨1, _⟩ => rfl
  rw [eb]
  refine (Read.val_main_v10_apply (F := Ideal) x2 _).trans ?_
  have es : Read.idx_main_v10 (ix2 s j) = ix2 (⟨s.val, by omega⟩ : Fin 4096) j := by
    funext a; match a with
    | ⟨0, _⟩ => rfl
    | ⟨1, _⟩ => rfl
  rw [es]

theorem v14_at (s : Fin 2048) (b : Fin 2) (h : Fin 12) (j : Fin 32) :
    Read.val_main_v14 (F := Ideal) x2 (ix4 s b h j) = x2 (ix2 (⟨s.val, by omega⟩ : Fin 4096) j) := by
  refine (Read.val_main_v14_apply (F := Ideal) x2 _).trans ?_
  have ef : Read.idx_main_v14 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v11_at x2 s j

theorem v21_at (s : Fin 2048) (b : Fin 2) (h : Fin 12) (j : Fin 32) :
    Read.val_main_v21 (F := Ideal) x2 (ix4 s b h j) = x2 (ix2 (⟨s.val, by omega⟩ : Fin 4096) j) := by
  refine (Read.val_main_v21_apply (F := Ideal) x2 _).trans ?_
  have ef : Read.idx_main_v21 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v11_at x2 s j

/-- The sine table's first 2048 rows, spread over batch and head: entry (s, ·, ·, j) is the table at (s, j). -/
theorem v13_at (s : Fin 2048) (j : Fin 32) :
    Read.val_main_v13 (F := Ideal) x3 (ix4 s (⟨0, Nat.one_pos⟩ : Fin 1) (⟨0, Nat.one_pos⟩ : Fin 1) j)
      = x3 (ix2 (⟨s.val, by omega⟩ : Fin 4096) j) := by
  refine (Read.val_main_v13_apply (F := Ideal) x3 _).trans ?_
  have eb : Read.idx_main_v13 (ix4 s (⟨0, Nat.one_pos⟩ : Fin 1) (⟨0, Nat.one_pos⟩ : Fin 1) j) = ix2 s j := by
    funext a; match a with
    | ⟨0, _⟩ => rfl
    | ⟨1, _⟩ => rfl
  rw [eb]
  refine (Read.val_main_v12_apply (F := Ideal) x3 _).trans ?_
  have es : Read.idx_main_v12 (ix2 s j) = ix2 (⟨s.val, by omega⟩ : Fin 4096) j := by
    funext a; match a with
    | ⟨0, _⟩ => rfl
    | ⟨1, _⟩ => rfl
  rw [es]

theorem v16_at (s : Fin 2048) (b : Fin 2) (h : Fin 12) (j : Fin 32) :
    Read.val_main_v16 (F := Ideal) x3 (ix4 s b h j) = x3 (ix2 (⟨s.val, by omega⟩ : Fin 4096) j) := by
  refine (Read.val_main_v16_apply (F := Ideal) x3 _).trans ?_
  have ef : Read.idx_main_v16 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v13_at x3 s j

theorem v19_at (s : Fin 2048) (b : Fin 2) (h : Fin 12) (j : Fin 32) :
    Read.val_main_v19 (F := Ideal) x3 (ix4 s b h j) = x3 (ix2 (⟨s.val, by omega⟩ : Fin 4096) j) := by
  refine (Read.val_main_v19_apply (F := Ideal) x3 _).trans ?_
  have ef : Read.idx_main_v19 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v13_at x3 s j

/-- The cosine table's first 2048 rows, spread over batch and head: entry (s, ·, ·, j) is the table at (s, j). -/
theorem v34_at (s : Fin 2048) (j : Fin 32) :
    Read.val_main_v34 (F := Ideal) x2 (ix4 s (⟨0, Nat.one_pos⟩ : Fin 1) (⟨0, Nat.one_pos⟩ : Fin 1) j)
      = x2 (ix2 (⟨s.val, by omega⟩ : Fin 4096) j) := by
  refine (Read.val_main_v34_apply (F := Ideal) x2 _).trans ?_
  have eb : Read.idx_main_v34 (ix4 s (⟨0, Nat.one_pos⟩ : Fin 1) (⟨0, Nat.one_pos⟩ : Fin 1) j) = ix2 s j := by
    funext a; match a with
    | ⟨0, _⟩ => rfl
    | ⟨1, _⟩ => rfl
  rw [eb]
  refine (Read.val_main_v33_apply (F := Ideal) x2 _).trans ?_
  have es : Read.idx_main_v33 (ix2 s j) = ix2 (⟨s.val, by omega⟩ : Fin 4096) j := by
    funext a; match a with
    | ⟨0, _⟩ => rfl
    | ⟨1, _⟩ => rfl
  rw [es]

theorem v37_at (s : Fin 2048) (b : Fin 2) (h : Fin 12) (j : Fin 32) :
    Read.val_main_v37 (F := Ideal) x2 (ix4 s b h j) = x2 (ix2 (⟨s.val, by omega⟩ : Fin 4096) j) := by
  refine (Read.val_main_v37_apply (F := Ideal) x2 _).trans ?_
  have ef : Read.idx_main_v37 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v34_at x2 s j

theorem v44_at (s : Fin 2048) (b : Fin 2) (h : Fin 12) (j : Fin 32) :
    Read.val_main_v44 (F := Ideal) x2 (ix4 s b h j) = x2 (ix2 (⟨s.val, by omega⟩ : Fin 4096) j) := by
  refine (Read.val_main_v44_apply (F := Ideal) x2 _).trans ?_
  have ef : Read.idx_main_v44 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v34_at x2 s j

/-- The sine table's first 2048 rows, spread over batch and head: entry (s, ·, ·, j) is the table at (s, j). -/
theorem v36_at (s : Fin 2048) (j : Fin 32) :
    Read.val_main_v36 (F := Ideal) x3 (ix4 s (⟨0, Nat.one_pos⟩ : Fin 1) (⟨0, Nat.one_pos⟩ : Fin 1) j)
      = x3 (ix2 (⟨s.val, by omega⟩ : Fin 4096) j) := by
  refine (Read.val_main_v36_apply (F := Ideal) x3 _).trans ?_
  have eb : Read.idx_main_v36 (ix4 s (⟨0, Nat.one_pos⟩ : Fin 1) (⟨0, Nat.one_pos⟩ : Fin 1) j) = ix2 s j := by
    funext a; match a with
    | ⟨0, _⟩ => rfl
    | ⟨1, _⟩ => rfl
  rw [eb]
  refine (Read.val_main_v35_apply (F := Ideal) x3 _).trans ?_
  have es : Read.idx_main_v35 (ix2 s j) = ix2 (⟨s.val, by omega⟩ : Fin 4096) j := by
    funext a; match a with
    | ⟨0, _⟩ => rfl
    | ⟨1, _⟩ => rfl
  rw [es]

theorem v39_at (s : Fin 2048) (b : Fin 2) (h : Fin 12) (j : Fin 32) :
    Read.val_main_v39 (F := Ideal) x3 (ix4 s b h j) = x3 (ix2 (⟨s.val, by omega⟩ : Fin 4096) j) := by
  refine (Read.val_main_v39_apply (F := Ideal) x3 _).trans ?_
  have ef : Read.idx_main_v39 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v36_at x3 s j

theorem v42_at (s : Fin 2048) (b : Fin 2) (h : Fin 12) (j : Fin 32) :
    Read.val_main_v42 (F := Ideal) x3 (ix4 s b h j) = x3 (ix2 (⟨s.val, by omega⟩ : Fin 4096) j) := by
  refine (Read.val_main_v42_apply (F := Ideal) x3 _).trans ?_
  have ef : Read.idx_main_v42 (ix4 s b h j) = ix4 s (⟨0, Nat.one_pos⟩ : Fin 1) (⟨0, Nat.one_pos⟩ : Fin 1) j := by
    funext a; match a with
    | ⟨0, _⟩ => rfl
    | ⟨1, _⟩ => rfl
    | ⟨2, _⟩ => rfl
    | ⟨3, _⟩ => rfl
  rw [ef]; exact v36_at x3 s j

/-- Pair j of the query part after the rotation, even slot: m0·cos − m1·sin. -/
theorem v18_at (s : Fin 2048) (b : Fin 2) (h : Fin 12) (j : Fin 32) :
    Read.val_main_v18 (F := Ideal) x0 x1 x2 x3 (ix4 s b h j)
      = RopeSpec.mix x0 x1 s b (⟨h.val * 192 + ((2 * j.val + 0)), by omega⟩ : Fin 2304) * x2 (ix2 (⟨s.val, by omega⟩ : Fin 4096) j)
        - RopeSpec.mix x0 x1 s b (⟨h.val * 192 + ((2 * j.val + 1)), by omega⟩ : Fin 2304) * x3 (ix2 (⟨s.val, by omega⟩ : Fin 4096) j) := by
  rw [Read.val_main_v18_apply, Read.val_main_v15_apply, Read.val_main_v17_apply,
    v7_at, v14_at, v9_at, v16_at]
  rfl

/-- Pair j of the query part after the rotation, odd slot: m0·sin + m1·cos. -/
theorem v23_at (s : Fin 2048) (b : Fin 2) (h : Fin 12) (j : Fin 32) :
    Read.val_main_v23 (F := Ideal) x0 x1 x2 x3 (ix4 s b h j)
      = RopeSpec.mix x0 x1 s b (⟨h.val * 192 + ((2 * j.val + 0)), by omega⟩ : Fin 2304) * x3 (ix2 (⟨s.val, by omega⟩ : Fin 4096) j)
        + RopeSpec.mix x0 x1 s b (⟨h.val * 192 + ((2 * j.val + 1)), by omega⟩ : Fin 2304) * x2 (ix2 (⟨s.val, by omega⟩ : Fin 4096) j) := by
  rw [Read.val_main_v23_apply, Read.val_main_v20_apply, Read.val_main_v22_apply,
    v7_at, v19_at, v9_at, v21_at]
  rfl

/-- A unit axis appended behind the pair axis changes nothing. -/
theorem v24_at (s : Fin 2048) (b : Fin 2) (h : Fin 12) (j : Fin 32) (z : Fin 1) :
    Read.val_main_v24 (F := Ideal) x0 x1 x2 x3 (ix5 s b h j z) = Read.val_main_v18 (F := Ideal) x0 x1 x2 x3 (ix4 s b h j) := by
  refine (Read.val_main_v24_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

theorem v25_at (s : Fin 2048) (b : Fin 2) (h : Fin 12) (j : Fin 32) (z : Fin 1) :
    Read.val_main_v25 (F := Ideal) x0 x1 x2 x3 (ix5 s b h j z) = Read.val_main_v23 (F := Ideal) x0 x1 x2 x3 (ix4 s b h j) := by
  refine (Read.val_main_v25_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

/-- The two slots joined along the last axis: slot 0 is the first operand. -/
theorem v26_at0 (s : Fin 2048) (b : Fin 2) (h : Fin 12) (j : Fin 32) :
    Read.val_main_v26 (F := Ideal) x0 x1 x2 x3 (ix5 s b h j (⟨0, by omega⟩ : Fin 2))
      = Read.val_main_v18 (F := Ideal) x0 x1 x2 x3 (ix4 s b h j) := by
  refine Eq.trans ?_ (v24_at x0 x1 x2 x3 s b h j (⟨0, Nat.one_pos⟩ : Fin 1))
  unfold Read.val_main_v26
  generalize Read.val_main_v24 (F := Ideal) x0 x1 x2 x3 = y1
  generalize Read.val_main_v25 (F := Ideal) x0 x1 x2 x3 = y2
  exact concatenate_pair_apply_left 4 y1 y2 concatenates_S2048x2x12x32x1_S2048x2x12x32x1_S2048x2x12x32x2_d4 _ rfl _ (fun c => by
    match c with
    | ⟨0, _⟩ => rfl
    | ⟨1, _⟩ => rfl
    | ⟨2, _⟩ => rfl
    | ⟨3, _⟩ => rfl
    | ⟨4, _⟩ => rfl)

/-- Slot 1 is the second operand (at its only position 0 on the joined axis). -/
theorem v26_at1 (s : Fin 2048) (b : Fin 2) (h : Fin 12) (j : Fin 32) :
    Read.val_main_v26 (F := Ideal) x0 x1 x2 x3 (ix5 s b h j (⟨1, by omega⟩ : Fin 2))
      = Read.val_main_v23 (F := Ideal) x0 x1 x2 x3 (ix4 s b h j) := by
  refine Eq.trans ?_ (v25_at x0 x1 x2 x3 s b h j (⟨0, Nat.one_pos⟩ : Fin 1))
  unfold Read.val_main_v26
  generalize Read.val_main_v24 (F := Ideal) x0 x1 x2 x3 = y1
  generalize Read.val_main_v25 (F := Ideal) x0 x1 x2 x3 = y2
  exact concatenate_pair_apply_right 4 y1 y2 concatenates_S2048x2x12x32x1_S2048x2x12x32x1_S2048x2x12x32x2_d4 _ rfl rfl _
    (fun c hc => by
      match c with
      | ⟨0, _⟩ => rfl
      | ⟨1, _⟩ => rfl
      | ⟨2, _⟩ => rfl
      | ⟨3, _⟩ => rfl
      | ⟨4, _⟩ => exact absurd rfl hc)
    rfl

/-- Merging (pair, slot) back into the feature axis: feature d is pair d / 2, slot d % 2. -/
theorem v27_at (s : Fin 2048) (b : Fin 2) (h : Fin 12) (d : Fin 64) :
    Read.val_main_v27 (F := Ideal) x0 x1 x2 x3 (ix4 s b h d)
      = Read.val_main_v26 (F := Ideal) x0 x1 x2 x3 (ix5 s b h (⟨d.val / 2, by omega⟩ : Fin 32) (⟨d.val % 2, by omega⟩ : Fin 2)) := by
  refine (Read.val_main_v27_apply (F := Ideal) x0 x1 x2 x3 _).trans ?_
  refine congrArg _ ?_
  have hs := s.isLt; have hb := b.isLt; have hh := h.isLt; have hd := d.isLt
  funext a; match a with
  | ⟨0, _⟩ => exact Fin.ext (by show (((s.val * 2 + b.val) * 12 + h.val) * 64 + d.val) / 1536 = s.val; omega)
  | ⟨1, _⟩ => exact Fin.ext (by show (((s.val * 2 + b.val) * 12 + h.val) * 64 + d.val) / 768 % 2 = b.val; omega)
  | ⟨2, _⟩ => exact Fin.ext (by show (((s.val * 2 + b.val) * 12 + h.val) * 64 + d.val) / 64 % 12 = h.val; omega)
  | ⟨3, _⟩ => exact Fin.ext (by show (((s.val * 2 + b.val) * 12 + h.val) * 64 + d.val) / 2 % 32 = d.val / 2; omega)
  | ⟨4, _⟩ => exact Fin.ext (by show (((s.val * 2 + b.val) * 12 + h.val) * 64 + d.val) % 2 = d.val % 2; omega)

/-- The reorder to [batch·12 + head, position, feature]: slot bh is batch bh / 12, head bh % 12. -/
theorem v52_at (bh : Fin 24) (s : Fin 2048) (d : Fin 64) :
    Read.val_main_v52 (F := Ideal) x0 x1 x2 x3 (ix3 bh s d)
      = Read.val_main_v27 (F := Ideal) x0 x1 x2 x3 (ix4 s (⟨bh.val / 12, by omega⟩ : Fin 2) (⟨bh.val % 12, by omega⟩ : Fin 12) d) := by
  refine (Read.val_main_v52_apply (F := Ideal) x0 x1 x2 x3 _).trans ?_
  have e52 : Read.idx_main_v52 (ix3 bh s d) = ix4 (⟨bh.val / 12, by omega⟩ : Fin 2) (⟨bh.val % 12, by omega⟩ : Fin 12) s d := by
    have hbh := bh.isLt; have hs := s.isLt; have hd := d.isLt
    funext a; match a with
    | ⟨0, _⟩ => exact Fin.ext (by show ((bh.val * 2048 + s.val) * 64 + d.val) / 1572864 = bh.val / 12; omega)
    | ⟨1, _⟩ => exact Fin.ext (by show ((bh.val * 2048 + s.val) * 64 + d.val) / 131072 % 12 = bh.val % 12; omega)
    | ⟨2, _⟩ => exact Fin.ext (by show ((bh.val * 2048 + s.val) * 64 + d.val) / 64 % 2048 = s.val; omega)
    | ⟨3, _⟩ => exact Fin.ext (by show ((bh.val * 2048 + s.val) * 64 + d.val) % 64 = d.val; omega)
  rw [e52]
  refine (Read.val_main_v51_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

/-- Pair j of the key part after the rotation, even slot: m0·cos − m1·sin. -/
theorem v41_at (s : Fin 2048) (b : Fin 2) (h : Fin 12) (j : Fin 32) :
    Read.val_main_v41 (F := Ideal) x0 x1 x2 x3 (ix4 s b h j)
      = RopeSpec.mix x0 x1 s b (⟨h.val * 192 + (64 + (2 * j.val + 0)), by omega⟩ : Fin 2304) * x2 (ix2 (⟨s.val, by omega⟩ : Fin 4096) j)
        - RopeSpec.mix x0 x1 s b (⟨h.val * 192 + (64 + (2 * j.val + 1)), by omega⟩ : Fin 2304) * x3 (ix2 (⟨s.val, by omega⟩ : Fin 4096) j) := by
  rw [Read.val_main_v41_apply, Read.val_main_v38_apply, Read.val_main_v40_apply,
    v30_at, v37_at, v32_at, v39_at]
  rfl

/-- Pair j of the key part after the rotation, odd slot: m0·sin + m1·cos. -/
theorem v46_at (s : Fin 2048) (b : Fin 2) (h : Fin 12) (j : Fin 32) :
    Read.val_main_v46 (F := Ideal) x0 x1 x2 x3 (ix4 s b h j)
      = RopeSpec.mix x0 x1 s b (⟨h.val * 192 + (64 + (2 * j.val + 0)), by omega⟩ : Fin 2304) * x3 (ix2 (⟨s.val, by omega⟩ : Fin 4096) j)
        + RopeSpec.mix x0 x1 s b (⟨h.val * 192 + (64 + (2 * j.val + 1)), by omega⟩ : Fin 2304) * x2 (ix2 (⟨s.val, by omega⟩ : Fin 4096) j) := by
  rw [Read.val_main_v46_apply, Read.val_main_v43_apply, Read.val_main_v45_apply,
    v30_at, v42_at, v32_at, v44_at]
  rfl

/-- A unit axis appended behind the pair axis changes nothing. -/
theorem v47_at (s : Fin 2048) (b : Fin 2) (h : Fin 12) (j : Fin 32) (z : Fin 1) :
    Read.val_main_v47 (F := Ideal) x0 x1 x2 x3 (ix5 s b h j z) = Read.val_main_v41 (F := Ideal) x0 x1 x2 x3 (ix4 s b h j) := by
  refine (Read.val_main_v47_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

theorem v48_at (s : Fin 2048) (b : Fin 2) (h : Fin 12) (j : Fin 32) (z : Fin 1) :
    Read.val_main_v48 (F := Ideal) x0 x1 x2 x3 (ix5 s b h j z) = Read.val_main_v46 (F := Ideal) x0 x1 x2 x3 (ix4 s b h j) := by
  refine (Read.val_main_v48_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

/-- The two slots joined along the last axis: slot 0 is the first operand. -/
theorem v49_at0 (s : Fin 2048) (b : Fin 2) (h : Fin 12) (j : Fin 32) :
    Read.val_main_v49 (F := Ideal) x0 x1 x2 x3 (ix5 s b h j (⟨0, by omega⟩ : Fin 2))
      = Read.val_main_v41 (F := Ideal) x0 x1 x2 x3 (ix4 s b h j) := by
  refine Eq.trans ?_ (v47_at x0 x1 x2 x3 s b h j (⟨0, Nat.one_pos⟩ : Fin 1))
  unfold Read.val_main_v49
  generalize Read.val_main_v47 (F := Ideal) x0 x1 x2 x3 = y1
  generalize Read.val_main_v48 (F := Ideal) x0 x1 x2 x3 = y2
  exact concatenate_pair_apply_left 4 y1 y2 concatenates_S2048x2x12x32x1_S2048x2x12x32x1_S2048x2x12x32x2_d4 _ rfl _ (fun c => by
    match c with
    | ⟨0, _⟩ => rfl
    | ⟨1, _⟩ => rfl
    | ⟨2, _⟩ => rfl
    | ⟨3, _⟩ => rfl
    | ⟨4, _⟩ => rfl)

/-- Slot 1 is the second operand (at its only position 0 on the joined axis). -/
theorem v49_at1 (s : Fin 2048) (b : Fin 2) (h : Fin 12) (j : Fin 32) :
    Read.val_main_v49 (F := Ideal) x0 x1 x2 x3 (ix5 s b h j (⟨1, by omega⟩ : Fin 2))
      = Read.val_main_v46 (F := Ideal) x0 x1 x2 x3 (ix4 s b h j) := by
  refine Eq.trans ?_ (v48_at x0 x1 x2 x3 s b h j (⟨0, Nat.one_pos⟩ : Fin 1))
  unfold Read.val_main_v49
  generalize Read.val_main_v47 (F := Ideal) x0 x1 x2 x3 = y1
  generalize Read.val_main_v48 (F := Ideal) x0 x1 x2 x3 = y2
  exact concatenate_pair_apply_right 4 y1 y2 concatenates_S2048x2x12x32x1_S2048x2x12x32x1_S2048x2x12x32x2_d4 _ rfl rfl _
    (fun c hc => by
      match c with
      | ⟨0, _⟩ => rfl
      | ⟨1, _⟩ => rfl
      | ⟨2, _⟩ => rfl
      | ⟨3, _⟩ => rfl
      | ⟨4, _⟩ => exact absurd rfl hc)
    rfl

/-- Merging (pair, slot) back into the feature axis: feature d is pair d / 2, slot d % 2. -/
theorem v50_at (s : Fin 2048) (b : Fin 2) (h : Fin 12) (d : Fin 64) :
    Read.val_main_v50 (F := Ideal) x0 x1 x2 x3 (ix4 s b h d)
      = Read.val_main_v49 (F := Ideal) x0 x1 x2 x3 (ix5 s b h (⟨d.val / 2, by omega⟩ : Fin 32) (⟨d.val % 2, by omega⟩ : Fin 2)) := by
  refine (Read.val_main_v50_apply (F := Ideal) x0 x1 x2 x3 _).trans ?_
  refine congrArg _ ?_
  have hs := s.isLt; have hb := b.isLt; have hh := h.isLt; have hd := d.isLt
  funext a; match a with
  | ⟨0, _⟩ => exact Fin.ext (by show (((s.val * 2 + b.val) * 12 + h.val) * 64 + d.val) / 1536 = s.val; omega)
  | ⟨1, _⟩ => exact Fin.ext (by show (((s.val * 2 + b.val) * 12 + h.val) * 64 + d.val) / 768 % 2 = b.val; omega)
  | ⟨2, _⟩ => exact Fin.ext (by show (((s.val * 2 + b.val) * 12 + h.val) * 64 + d.val) / 64 % 12 = h.val; omega)
  | ⟨3, _⟩ => exact Fin.ext (by show (((s.val * 2 + b.val) * 12 + h.val) * 64 + d.val) / 2 % 32 = d.val / 2; omega)
  | ⟨4, _⟩ => exact Fin.ext (by show (((s.val * 2 + b.val) * 12 + h.val) * 64 + d.val) % 2 = d.val % 2; omega)

/-- The reorder to [batch·12 + head, position, feature]: slot bh is batch bh / 12, head bh % 12. -/
theorem v54_at (bh : Fin 24) (s : Fin 2048) (d : Fin 64) :
    Read.val_main_v54 (F := Ideal) x0 x1 x2 x3 (ix3 bh s d)
      = Read.val_main_v50 (F := Ideal) x0 x1 x2 x3 (ix4 s (⟨bh.val / 12, by omega⟩ : Fin 2) (⟨bh.val % 12, by omega⟩ : Fin 12) d) := by
  refine (Read.val_main_v54_apply (F := Ideal) x0 x1 x2 x3 _).trans ?_
  have e52 : Read.idx_main_v54 (ix3 bh s d) = ix4 (⟨bh.val / 12, by omega⟩ : Fin 2) (⟨bh.val % 12, by omega⟩ : Fin 12) s d := by
    have hbh := bh.isLt; have hs := s.isLt; have hd := d.isLt
    funext a; match a with
    | ⟨0, _⟩ => exact Fin.ext (by show ((bh.val * 2048 + s.val) * 64 + d.val) / 1572864 = bh.val / 12; omega)
    | ⟨1, _⟩ => exact Fin.ext (by show ((bh.val * 2048 + s.val) * 64 + d.val) / 131072 % 12 = bh.val % 12; omega)
    | ⟨2, _⟩ => exact Fin.ext (by show ((bh.val * 2048 + s.val) * 64 + d.val) / 64 % 2048 = s.val; omega)
    | ⟨3, _⟩ => exact Fin.ext (by show ((bh.val * 2048 + s.val) * 64 + d.val) % 64 = d.val; omega)
  rw [e52]
  refine (Read.val_main_v53_apply (F := Ideal) x0 x1 x2 x3 _).trans ?_
  refine congrArg _ ?_
  funext a; match a with
  | ⟨0, _⟩ => rfl
  | ⟨1, _⟩ => rfl
  | ⟨2, _⟩ => rfl
  | ⟨3, _⟩ => rfl

/-- The query part, rotated, at (position s, batch b, head h, feature d) is the specification's rotation with part 0:
    an even feature reads slot 0 of its pair, an odd one slot 1, and the weight rows and table entry are the specification's. -/
theorem q_rot (s : Fin 2048) (b : Fin 2) (h : Fin 12) (d : Fin 64) :
    Read.val_main_v27 (F := Ideal) x0 x1 x2 x3 (ix4 s b h d) = RopeSpec.rot x0 x1 x2 x3 0 s b h d := by
  refine (v27_at x0 x1 x2 x3 s b h d).trans ?_
  have hdlt := d.isLt
  by_cases hd : d.val % 2 = 0
  · rw [RopeSpec.rot_even x0 x1 x2 x3 0 s b h d hd]
    have e : (⟨d.val % 2, by omega⟩ : Fin 2) = (⟨0, by omega⟩ : Fin 2) := Fin.ext hd
    rw [e]
    refine (v26_at0 x0 x1 x2 x3 s b h _).trans ?_
    refine (v18_at x0 x1 x2 x3 s b h _).trans ?_
    exact congrArg₂ (fun a c => a * x2 (RopeSpec.tix s d) - c * x3 (RopeSpec.tix s d))
      (congrArg (RopeSpec.mix x0 x1 s b) (Fin.ext (by
        show h.val * 192 + ((2 * (d.val / 2) + 0)) = h.val * 192 + 0 * 64 + 2 * (d.val / 2); omega)))
      (congrArg (RopeSpec.mix x0 x1 s b) (Fin.ext (by
        show h.val * 192 + ((2 * (d.val / 2) + 1)) = h.val * 192 + 0 * 64 + 2 * (d.val / 2) + 1; omega)))
  · rw [RopeSpec.rot_odd x0 x1 x2 x3 0 s b h d hd]
    have e : (⟨d.val % 2, by omega⟩ : Fin 2) = (⟨1, by omega⟩ : Fin 2) := Fin.ext (by show d.val % 2 = 1; omega)
    rw [e]
    refine (v26_at1 x0 x1 x2 x3 s b h _).trans ?_
    refine (v23_at x0 x1 x2 x3 s b h _).trans ?_
    exact congrArg₂ (fun a c => a * x3 (RopeSpec.tix s d) + c * x2 (RopeSpec.tix s d))
      (congrArg (RopeSpec.mix x0 x1 s b) (Fin.ext (by
        show h.val * 192 + ((2 * (d.val / 2) + 0)) = h.val * 192 + 0 * 64 + 2 * (d.val / 2); omega)))
      (congrArg (RopeSpec.mix x0 x1 s b) (Fin.ext (by
        show h.val * 192 + ((2 * (d.val / 2) + 1)) = h.val * 192 + 0 * 64 + 2 * (d.val / 2) + 1; omega)))

/-- The same in the product's layout: slot bh holds batch bh / 12, head bh % 12. -/
theorem q_at (bh : Fin 24) (s : Fin 2048) (d : Fin 64) :
    Read.val_main_v52 (F := Ideal) x0 x1 x2 x3 (ix3 bh s d)
      = RopeSpec.rot x0 x1 x2 x3 0 s (⟨bh.val / 12, by omega⟩ : Fin 2) (⟨bh.val % 12, by omega⟩ : Fin 12) d :=
  (v52_at x0 x1 x2 x3 bh s d).trans (q_rot x0 x1 x2 x3 s _ _ d)

/-- The key part, rotated, at (position s, batch b, head h, feature d) is the specification's rotation with part 1:
    an even feature reads slot 0 of its pair, an odd one slot 1, and the weight rows and table entry are the specification's. -/
theorem k_rot (s : Fin 2048) (b : Fin 2) (h : Fin 12) (d : Fin 64) :
    Read.val_main_v50 (F := Ideal) x0 x1 x2 x3 (ix4 s b h d) = RopeSpec.rot x0 x1 x2 x3 1 s b h d := by
  refine (v50_at x0 x1 x2 x3 s b h d).trans ?_
  have hdlt := d.isLt
  by_cases hd : d.val % 2 = 0
  · rw [RopeSpec.rot_even x0 x1 x2 x3 1 s b h d hd]
    have e : (⟨d.val % 2, by omega⟩ : Fin 2) = (⟨0, by omega⟩ : Fin 2) := Fin.ext hd
    rw [e]
    refine (v49_at0 x0 x1 x2 x3 s b h _).trans ?_
    refine (v41_at x0 x1 x2 x3 s b h _).trans ?_
    exact congrArg₂ (fun a c => a * x2 (RopeSpec.tix s d) - c * x3 (RopeSpec.tix s d))
      (congrArg (RopeSpec.mix x0 x1 s b) (Fin.ext (by
        show h.val * 192 + (64 + (2 * (d.val / 2) + 0)) = h.val * 192 + 1 * 64 + 2 * (d.val / 2); omega)))
      (congrArg (RopeSpec.mix x0 x1 s b) (Fin.ext (by
        show h.val * 192 + (64 + (2 * (d.val / 2) + 1)) = h.val * 192 + 1 * 64 + 2 * (d.val / 2) + 1; omega)))
  · rw [RopeSpec.rot_odd x0 x1 x2 x3 1 s b h d hd]
    have e : (⟨d.val % 2, by omega⟩ : Fin 2) = (⟨1, by omega⟩ : Fin 2) := Fin.ext (by show d.val % 2 = 1; omega)
    rw [e]
    refine (v49_at1 x0 x1 x2 x3 s b h _).trans ?_
    refine (v46_at x0 x1 x2 x3 s b h _).trans ?_
    exact congrArg₂ (fun a c => a * x3 (RopeSpec.tix s d) + c * x2 (RopeSpec.tix s d))
      (congrArg (RopeSpec.mix x0 x1 s b) (Fin.ext (by
        show h.val * 192 + (64 + (2 * (d.val / 2) + 0)) = h.val * 192 + 1 * 64 + 2 * (d.val / 2); omega)))
      (congrArg (RopeSpec.mix x0 x1 s b) (Fin.ext (by
        show h.val * 192 + (64 + (2 * (d.val / 2) + 1)) = h.val * 192 + 1 * 64 + 2 * (d.val / 2) + 1; omega)))

/-- The same in the product's layout: slot bh holds batch bh / 12, head bh % 12. -/
theorem k_at (bh : Fin 24) (s : Fin 2048) (d : Fin 64) :
    Read.val_main_v54 (F := Ideal) x0 x1 x2 x3 (ix3 bh s d)
      = RopeSpec.rot x0 x1 x2 x3 1 s (⟨bh.val / 12, by omega⟩ : Fin 2) (⟨bh.val % 12, by omega⟩ : Fin 12) d :=
  (v54_at x0 x1 x2 x3 bh s d).trans (k_rot x0 x1 x2 x3 s _ _ d)

/-- The reference's result is the specification's score array: entry (bh, s, t) is the sum over the 64 features of the
    rotated query at (bh, s) times the rotated key at (bh, t). -/
theorem ref_eq :
    Cert.ReferenceIdeal.Read.val_main_v55 (F := Ideal) x0 x1 x2 x3 = Cert.RopeSpec.out x0 x1 x2 x3 := by
  funext i
  refine (Read.val_main_v55_apply x0 x1 x2 x3 i).trans ?_
  show _ = RopeSpec.outAt x0 x1 x2 x3 (⟨(i 0).val, (i 0).isLt⟩ : Fin 24) (⟨(i 1).val, (i 1).isLt⟩ : Fin 2048)
    (⟨(i 2).val, (i 2).isLt⟩ : Fin 2048)
  unfold RopeSpec.outAt
  refine Finset.sum_congr rfl fun k _ => ?_
  have el : Read.lidx_main_v55 i k
      = ix3 (⟨(i 0).val, (i 0).isLt⟩ : Fin 24) (⟨(i 1).val, (i 1).isLt⟩ : Fin 2048) k := by
    funext a; match a with
    | ⟨0, _⟩ => rfl
    | ⟨1, _⟩ => rfl
    | ⟨2, _⟩ => rfl
  have er : Read.ridx_main_v55 i k
      = ix3 (⟨(i 0).val, (i 0).isLt⟩ : Fin 24) (⟨(i 2).val, (i 2).isLt⟩ : Fin 2048) k := by
    funext a; match a with
    | ⟨0, _⟩ => rfl
    | ⟨1, _⟩ => rfl
    | ⟨2, _⟩ => rfl
  rw [el, er, q_at, k_at]

end Cert.ReferenceIdeal.RefValue
end
-- ==== Proof.lean ====
/-
  The certificate: a fused query/key projection with rotary position embedding followed by the batched scores q·kᵀ, as a
  two-region pipelined kernel, against its array-program reference, over the extended reals.

  Both programs compute, for batch b, head h and positions s, t,
      out(b·12 + h, s, t) = Σ_d rot_q(s, b, h, d) · rot_k(t, b, h, d),
  where rot rotates each feature pair (2j, 2j+1) of the projection Σ_k X(s, b, k)·W(row, k) by the angle whose cosine and
  sine the tables hold at (s, j): the even feature becomes m0·cos − m1·sin, the odd one m0·sin + m1·cos (Proof/Spec.lean).
  * The reference does this literally (Proof/RefValue.lean reads its operations one at a time down to that formula).
  * The kernel projects onto a re-laid weight (the value rows dropped, transposed), takes each feature's partner by two
    rotations of the whole row and a parity mask, writes the partner's negation as 0 − x, multiplies by tables repeated to the
    row's width, and stores 64-column slices per head (Proof/RopePay.lean, RopeBlock.lean, RopeArr.lean, HostIn.lean); its
    second region multiplies the two stored arrays block by block (Proof/Scores.lean). The two spellings meet by
    a·c + (0 − b)·e = a·c − b·e and the commutativity of addition (Proof/Bridge.lean); no step needs the inputs finite.
  * The kernel's run with its result named is Proof/KRun.lean; Proof/KValue.lean composes the readings.
  The idealization rewrote nothing, so its conjunct is trivial; the three frames are the generated ones.
-/
import proofs.«120772_j11879879542592_2_alg».proof.Defs
import proofs.«120772_j11879879542592_2_alg».proof.Proof.Gen.Kernel
import proofs.«120772_j11879879542592_2_alg».proof.Proof.Gen.Kernel.Frame
import proofs.«120772_j11879879542592_2_alg».proof.Proof.Gen.KernelIdeal
import proofs.«120772_j11879879542592_2_alg».proof.Proof.Gen.KernelIdeal.Frame
import proofs.«120772_j11879879542592_2_alg».proof.Proof.Gen.ReferenceIdeal
import proofs.«120772_j11879879542592_2_alg».proof.Proof.Gen.ReferenceIdeal.Run
import proofs.«120772_j11879879542592_2_alg».proof.Proof.Gen.ReferenceIdeal.Read
import proofs.«120772_j11879879542592_2_alg».proof.Proof.Gen.Pre_finite_inputs
import proofs.«120772_j11879879542592_2_alg».proof.Proof.KRun
import proofs.«120772_j11879879542592_2_alg».proof.Proof.KValue
import proofs.«120772_j11879879542592_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments both programs end with the specification's score array of those arguments. -/
theorem algebraic : Cert.algebraic_KernelIdeal_ReferenceIdeal := by
  intro m ρ m' ρ' _ hagree
  refine ⟨fun c => Cert.RopeSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KValue.result_eq m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefValue.ref_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
